-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S4096x32768 : S_.BroadcastsInDim S4096x32768 (![] : Fin 0 → Fin S4096x32768.rank)
  reducesTo_S4096x32768_S_d0_1 : S4096x32768.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S256x256 : S_.BroadcastsInDim S256x256 (![] : Fin 0 → Fin S256x256.rank)
  reducesTo_S256x256_S_d0_1 : S256x256.ReducesTo [0, 1] S_
  bcast_S_S256x512 : S_.BroadcastsInDim S256x512 (![] : Fin 0 → Fin S256x512.rank)
  reducesTo_S256x512_S_d0_1 : S256x512.ReducesTo [0, 1] S_

variable [Facts]

def fn_part1 {F : FTy → Type} [FloatOps F] (main_arg4 : FVec F S256x512 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  main_v23

def fn {F : FTy → Type} [FloatOps F] (main_arg0 : FVec F S32768x128 .f32) (main_arg1 : FVec F S4096x32768 .f32) (main_arg2 : FVec F S1024x4096 .f32) (main_arg3 : FVec F S256x256 .f32) (main_arg4 : FVec F S256x512 .f32) (main_arg5 : IVec S4096 32) (main_arg6 : IVec S1024 32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S4096x32768 .f32 := Host.absf main_arg1
  let main_cst_0 : FVec F S_ .f32 := constant S_ .f32 0x7F800000#32
  let main_v5 : FVec F S4096x32768 .f32 := broadcastInDim S4096x32768 ![] bcast_S_S4096x32768 main_cst_0
  let main_v6 : IVec S4096x32768 1 := cmpf .olt main_v4 main_v5
  let main_c_1 : IVec S_ 1 := constantI S_ 1 1#1
  let main_v7 : IVec S_ 1 := (fun x v => Host.reduce IntOp.andi x v reducesTo_S4096x32768_S_d0_1 h_S_) main_v6 main_c_1
  let main_v8 : IVec S_ 1 := andi main_v3 main_v7
  let main_v9 : FVec F S1024x4096 .f32 := Host.absf main_arg2
  let main_cst_2 : FVec F S_ .f32 := constant S_ .f32 0x7F800000#32
  let main_v10 : FVec F S1024x4096 .f32 := broadcastInDim S1024x4096 ![] bcast_S_S1024x4096 main_cst_2
  let main_v11 : IVec S1024x4096 1 := cmpf .olt main_v9 main_v10
  let main_c_3 : IVec S_ 1 := constantI S_ 1 1#1
  let main_v12 : IVec S_ 1 := (fun x v => Host.reduce IntOp.andi x v reducesTo_S1024x4096_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_v13 main_v16
-- ==== Kernel.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S_ : Shape := ⟨0, ![]⟩
abbrev S4096x1 : Shape := ⟨2, ![4096, 1]⟩
abbrev S4096x128 : Shape := ⟨2, ![4096, 128]⟩
abbrev S256x128 : Shape := ⟨2, ![256, 128]⟩
abbrev S128x256 : Shape := ⟨2, ![128, 256]⟩
abbrev S4096x256 : Shape := ⟨2, ![4096, 256]⟩
abbrev S2048x2048 : Shape := ⟨2, ![2048, 2048]⟩
abbrev S2048x128 : Shape := ⟨2, ![2048, 128]⟩
abbrev S2048x256 : Shape := ⟨2, ![2048, 256]⟩
abbrev S1024x1 : Shape := ⟨2, ![1024, 1]⟩
abbrev S1024x256 : Shape := ⟨2, ![1024, 256]⟩
abbrev S512x4096 : Shape := ⟨2, ![512, 4096]⟩
abbrev S512x256 : Shape := ⟨2, ![512, 256]⟩

abbrev nBuf : Space → Nat
  | .hbm => 35
  | .vmem => 20
  | .smem => 0
  | _ => 0

abbrev bufTy : (tb : Table) → Fin (tcTables nBuf tb) → BufTy
  | .hbm, ⟨0, _⟩ => ⟨S32768x128, .f32⟩
  | .hbm, ⟨1, _⟩ => ⟨S4096x32768, .f32⟩
  | .hbm, ⟨2, _⟩ => ⟨S1024x4096, .f32⟩
  | .hbm, ⟨3, _⟩ => ⟨S256x256, .f32⟩
  | .hbm, ⟨4, _⟩ => ⟨S256x512, .f32⟩
  | .hbm, ⟨5, _⟩ => ⟨S4096, .i32⟩
  | .hbm, ⟨6, _⟩ => ⟨S1024, .i32⟩
  | .hbm, ⟨7, _⟩ => ⟨S_, .i32⟩
  | .hbm, ⟨8, _⟩ => ⟨S4096, .i32⟩
  | .hbm, ⟨9, _⟩ => ⟨S4096, .i1⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S4096, .i32⟩
  | .hbm, ⟨14, _⟩ => ⟨S4096x1, .i32⟩
  | .hbm, ⟨15, _⟩ => ⟨S4096x128, .f32⟩
  | .hbm, ⟨16, _⟩ => ⟨S256x128, .f32⟩
  | .hbm, ⟨17, _⟩ => ⟨S128x256, .f32⟩
  | .hbm, ⟨18, _⟩ => ⟨S256x128, .f32⟩
  | .hbm, ⟨19, _⟩ => ⟨S128x256, .f32⟩
  | .hbm, ⟨20, _⟩ => ⟨S4096x256, .f32⟩
  | .hbm, ⟨21, _⟩ => ⟨S_, .i32⟩
  | .hbm, ⟨22, _⟩ => ⟨S1024, .i32⟩
  | .hbm, ⟨23, _⟩ => ⟨S1024, .i1⟩
  | .hbm, ⟨24, _⟩ => ⟨S_, .i32⟩
  | .hbm, ⟨25, _⟩ => ⟨S1024, .i32⟩
  | .hbm, ⟨26, _⟩ => ⟨S1024, .i32⟩
  | .hbm, ⟨27, _⟩ => ⟨S1024, .i32⟩
  | .hbm, ⟨28, _⟩ => ⟨S1024x1, .i32⟩
  | .hbm, ⟨29, _⟩ => ⟨S1024x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S1024x256, .f32⟩
  | .local _ .vmem, ⟨0, _⟩ => ⟨S2048x2048, .f32⟩
  | .local _ .vmem, ⟨1, _⟩ => ⟨S2048x2048, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S128x256, .f32⟩
  | .local _ .vmem, ⟨7, _⟩ => ⟨S128x256, .f32⟩
  | .local _ .vmem, ⟨8, _⟩ => ⟨S2048x256, .f32⟩
  | .local _ .vmem, ⟨9, _⟩ => ⟨S2048x256, .f32⟩
  | .local _ .vmem, ⟨10, _⟩ => ⟨S2048x128, .f32⟩
  | .local _ .vmem, ⟨11, _⟩ => ⟨S512x4096, .f32⟩
  | .local _ .vmem, ⟨12, _⟩ => ⟨S512x4096, .f32⟩
  | .local _ .vmem, ⟨13, _⟩ => ⟨S4096x256, .f32⟩
  | .local _ .vmem, ⟨14, _⟩ => ⟨S512x256, .f32⟩
  | .local _ .vmem, ⟨15, _⟩ => ⟨S512x256, .f32⟩
  | .local _ .vmem, ⟨16, _⟩ => ⟨S256x256, .f32⟩
  | .local _ .vmem, ⟨17, _⟩ => ⟨S256x256, .f32⟩
  | .local _ .vmem, ⟨18, _⟩ => ⟨S512x256, .f32⟩
  | .local _ .vmem, ⟨19, _⟩ => ⟨S512x256, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c_1 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v11 : BitVec 1 := Scalar.cmpi .eq arg1 c15_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨1, ![2], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4096x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  slices_S256x256_S256x128_0_0 : S256x256.Slices ![0, 0] S256x128
  transposes_S256x128_S128x256_1_0 : S256x128.Transposes [1, 0] S128x256
  slices_S256x256_S256x128_0_128 : S256x256.Slices ![0, 128] S256x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x2048_S2048x2048_0_0 : ∀ a, (![0, 0] : Fin 2 → Nat) a + S2048x2048.size a ≤ S2048x2048.size a
  h_S2048x2048 : 0 < S2048x2048.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S2048x256_S2048x256_0_0 : ∀ a, (![0, 0] : Fin 2 → Nat) a + S2048x256.size a ≤ S2048x256.size a
  h_S2048x256 : 0 < S2048x256.numel
  bcast_S_S1024 : S_.BroadcastsInDim S1024 (![] : Fin 0 → Fin S1024.rank)
  bcast_S1024_S1024x1_0 : S1024.BroadcastsInDim S1024x1 (![0] : Fin 1 → Fin S1024x1.rank)
  slices_S256x512_S256x256_0_0 : S256x512.Slices ![0, 0] S256x256
  transposes_S256x256_S256x256_1_0 : S256x256.Transposes [1, 0] S256x256
  slices_S256x512_S256x256_0_256 : S256x512.Slices ![0, 256] S256x256
  inb_S512x4096_S512x4096_0_0 : ∀ a, (![0, 0] : Fin 2 → Nat) a + S512x4096.size a ≤ S512x4096.size a
  h_S512x4096 : 0 < S512x4096.numel
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  gather_S32768x128_S4096x1_S4096x128_1_0_n_n_0_1_1128_wf : GatherDims.WF S32768x128 S4096x1 S4096x128 [1] [0] [] [0] [] 1 ![1, 128]
  dot_S2048x2048_S2048x128_S2048x128_1_0_0_1_n_n_wf : DotDims.WF S2048x2048 S2048x128 S2048x128 [1] [0] [0] [1] [] []
  dot_S2048x128_S128x256_S2048x256_1_0_0_1_n_n_wf : DotDims.WF S2048x128 S128x256 S2048x256 [1] [0] [0] [1] [] []
  gather_S4096x256_S1024x1_S1024x256_1_0_n_n_0_1_1256_wf : GatherDims.WF S4096x256 S1024x1 S1024x256 [1] [0] [] [0] [] 1 ![1, 256]
  dot_S512x4096_S4096x256_S512x256_1_0_0_1_n_n_wf : DotDims.WF S512x4096 S4096x256 S512x256 [1] [0] [0] [1] [] []
  dot_S512x256_S256x256_S512x256_1_0_0_1_n_n_wf : DotDims.WF S512x256 S256x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S4096x32768.size a
  hwx0_0 : ∀ i : grid0.Coords, EltTy.bits .f32 = 32 ∨ (Rect.block (s := S4096x32768) S2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S32768x128.size a
  hwx0_1 : ∀ i : grid0.Coords, EltTy.bits .f32 = 32 ∨ (Rect.block (s := S32768x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S4096x128.size a
  hwx0_2 : ∀ i : grid0.Coords, EltTy.bits .f32 = 32 ∨ (Rect.block (s := S4096x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S4096x256.size a
  hwx0_5 : ∀ i : grid0.Coords, EltTy.bits .f32 = 32 ∨ (Rect.block (s := S4096x256) S2048x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S1024x4096.size a
  hwx1_0 : ∀ i : grid1.Coords, EltTy.bits .f32 = 32 ∨ (Rect.block (s := S1024x4096) S512x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4096x256.size a ≤ S4096x256.size a
  hwx1_1 : ∀ i : grid1.Coords, EltTy.bits .f32 = 32 ∨ (Rect.block (s := S4096x256) S4096x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x256.size a ≤ S1024x256.size a
  hwx1_2 : ∀ i : grid1.Coords, EltTy.bits .f32 = 32 ∨ (Rect.block (s := S1024x256) S512x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .f32 = 32 ∨ (Rect.block (s := S256x256) S256x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x256.size a ≤ S1024x256.size a
  hwx1_5 : ∀ i : grid1.Coords, EltTy.bits .f32 = 32 ∨ (Rect.block (s := S1024x256) S512x256.size (cc1_transform_5 i) (hinb1_5 i)).WholeWords (EltTy.packing .f32)

variable [Facts₀]

def gather_S32768x128_S4096x1_S4096x128_1_0_n_n_0_1_1128 : GatherDims S32768x128 S4096x1 S4096x128 where
  offsetDims := [1]
  collapsedSliceDims := [0]
  operandBatchingDims := []
  startIndicesBatchingDims := []
  startIndexMap := [0]
  indexVectorDim := 1
  sliceSizes := ![1, 128]
  wf := gather_S32768x128_S4096x1_S4096x128_1_0_n_n_0_1_1128_wf
def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def gather_S4096x256_S1024x1_S1024x256_1_0_n_n_0_1_1256 : GatherDims S4096x256 S1024x1 S1024x256 where
  offsetDims := [1]
  collapsedSliceDims := [0]
  operandBatchingDims := []
  startIndicesBatchingDims := []
  startIndexMap := [0]
  indexVectorDim := 1
  sliceSizes := ![1, 256]
  wf := gather_S4096x256_S1024x1_S1024x256_1_0_n_n_0_1_1256_wf
def dot_S512x4096_S4096x256_S512x256_1_0_0_1_n_n : DotDims S512x4096 S4096x256 S512x256 where
  lhsContracting := [1]
  rhsContracting := [0]
  lhsNonContracting := [0]
  rhsNonContracting := [1]
  lhsBatch := []
  rhsBatch := []
  wf := dot_S512x4096_S4096x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf

abbrev win0_0 : Pipeline.Window sig grid0 :=
  Pipeline.Window.ofSpec (Memref.whole main_arg1) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2048x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

abbrev win1_0 : Pipeline.Window sig grid1 :=
  Pipeline.Window.ofSpec (Memref.whole main_arg2) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S4096x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S512x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S512x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x128 : Shape := ⟨2, ![32768, 128]⟩
abbrev S4096x32768 : Shape := ⟨2, ![4096, 32768]⟩
abbrev S1024x4096 : Shape := ⟨2, ![1024, 4096]⟩
abbrev S256x256 : Shape := ⟨2, ![256, 256]⟩
abbrev S256x512 : Shape := ⟨2, ![256, 512]⟩
abbrev S4096 : Shape := ⟨1, ![4096]⟩
abbrev S1024 : Shape := ⟨1, ![1024]⟩
abbrev S4096x128 : Shape := ⟨2, ![4096, 128]⟩
abbrev S_ : Shape := ⟨0, ![]⟩
abbrev S4096x1 : Shape := ⟨2, ![4096, 1]⟩
abbrev S4096x256 : Shape := ⟨2, ![4096, 256]⟩
abbrev S1024x256 : Shape := ⟨2, ![1024, 256]⟩
abbrev S1024x1 : Shape := ⟨2, ![1024, 1]⟩
abbrev S1024x512 : Shape := ⟨2, ![1024, 512]⟩
abbrev S512x256 : Shape := ⟨2, ![512, 256]⟩

abbrev nBuf : Space → Nat
  | .hbm => 39
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S4096x32768, .f32⟩
  | .hbm, ⟨2, _⟩ => ⟨S1024x4096, .f32⟩
  | .hbm, ⟨3, _⟩ => ⟨S256x256, .f32⟩
  | .hbm, ⟨4, _⟩ => ⟨S256x512, .f32⟩
  | .hbm, ⟨5, _⟩ => ⟨S4096, .i32⟩
  | .hbm, ⟨6, _⟩ => ⟨S1024, .i32⟩
  | .hbm, ⟨7, _⟩ => ⟨S4096x128, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x128, .f32⟩
  | .hbm, ⟨17, _⟩ => ⟨S4096x256, .f32⟩
  | .hbm, ⟨18, _⟩ => ⟨S256x256, .f32⟩
  | .hbm, ⟨19, _⟩ => ⟨S4096x256, .f32⟩
  | .hbm, ⟨20, _⟩ => ⟨S_, .f32⟩
  | .hbm, ⟨21, _⟩ => ⟨S4096x256, .f32⟩
  | .hbm, ⟨22, _⟩ => ⟨S4096x256, .f32⟩
  | .hbm, ⟨23, _⟩ => ⟨S1024x256, .f32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S1024x256, .f32⟩
  | .hbm, ⟨33, _⟩ => ⟨S1024x512, .f32⟩
  | .hbm, ⟨34, _⟩ => ⟨S512x256, .f32⟩
  | .hbm, ⟨35, _⟩ => ⟨S1024x256, .f32⟩
  | .hbm, ⟨36, _⟩ => ⟨S_, .f32⟩
  | .hbm, ⟨37, _⟩ => ⟨S1024x256, .f32⟩
  | .hbm, ⟨38, _⟩ => ⟨S1024x256, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_cst : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call1_cst : Ref sig .tc := ⟨.hbm, 36, rfl⟩
abbrev main_call1_v0 : Ref sig .tc := ⟨.hbm, 37, rfl⟩
abbrev main_v23 : Ref sig .tc := ⟨.hbm, 38, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  concatenates_S4096x128_S4096x128_S4096x256_d1 : Shape.Concatenates [S4096x128, S4096x128] S4096x256 1
  transposes_S256x256_S256x256_1_0 : S256x256.Transposes [1, 0] S256x256
  bcast_S_S4096x256 : S_.BroadcastsInDim S4096x256 (![] : Fin 0 → Fin S4096x256.rank)
  bcast_S_S1024 : S_.BroadcastsInDim S1024 (![] : Fin 0 → Fin S1024.rank)
  bcast_S1024_S1024x1_0 : S1024.BroadcastsInDim S1024x1 (![0] : Fin 1 → Fin S1024x1.rank)
  concatenates_S1024x256_S1024x256_S1024x512_d1 : Shape.Concatenates [S1024x256, S1024x256] S1024x512 1
  transposes_S256x512_S512x256_1_0 : S256x512.Transposes [1, 0] S512x256
  bcast_S_S1024x256 : S_.BroadcastsInDim S1024x256 (![] : Fin 0 → Fin S1024x256.rank)
  dot_S4096x32768_S32768x128_S4096x128_1_0_0_1_n_n_wf : DotDims.WF S4096x32768 S32768x128 S4096x128 [1] [0] [0] [1] [] []
  gather_S32768x128_S4096x1_S4096x128_1_0_n_n_0_1_1128_wf : GatherDims.WF S32768x128 S4096x1 S4096x128 [1] [0] [] [0] [] 1 ![1, 128]
  dot_S4096x256_S256x256_S4096x256_1_0_0_1_n_n_wf : DotDims.WF S4096x256 S256x256 S4096x256 [1] [0] [0] [1] [] []
  dot_S1024x4096_S4096x256_S1024x256_1_0_0_1_n_n_wf : DotDims.WF S1024x4096 S4096x256 S1024x256 [1] [0] [0] [1] [] []
  gather_S4096x256_S1024x1_S1024x256_1_0_n_n_0_1_1256_wf : GatherDims.WF S4096x256 S1024x1 S1024x256 [1] [0] [] [0] [] 1 ![1, 256]
  dot_S1024x512_S512x256_S1024x256_1_0_0_1_n_n_wf : DotDims.WF S1024x512 S512x256 S1024x256 [1] [0] [0] [1] [] []

variable [Facts₀]

def dot_S4096x32768_S32768x128_S4096x128_1_0_0_1_n_n : DotDims S4096x32768 S32768x128 S4096x128 where
  lhsContracting := [1]
  rhsContracting := [0]
  lhsNonContracting := [0]
  rhsNonContracting := [1]
  lhsBatch := []
  rhsBatch := []
  wf := dot_S4096x32768_S32768x128_S4096x128_1_0_0_1_n_n_wf
def gather_S32768x128_S4096x1_S4096x128_1_0_n_n_0_1_1128 : GatherDims S32768x128 S4096x1 S4096x128 where
  offsetDims := [1]
  collapsedSliceDims := [0]
  operandBatchingDims := []
  startIndicesBatchingDims := []
  startIndexMap := [0]
  indexVectorDim := 1
  sliceSizes := ![1, 128]
  wf := gather_S32768x128_S4096x1_S4096x128_1_0_n_n_0_1_1128_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S1024x4096_S4096x256_S1024x256_1_0_0_1_n_n : DotDims S1024x4096 S4096x256 S1024x256 where
  lhsContracting := [1]
  rhsContracting := [0]
  lhsNonContracting := [0]
  rhsNonContracting := [1]
  lhsBatch := []
  rhsBatch := []
  wf := dot_S1024x4096_S4096x256_S1024x256_1_0_0_1_n_n_wf
def gather_S4096x256_S1024x1_S1024x256_1_0_n_n_0_1_1256 : GatherDims S4096x256 S1024x1 S1024x256 where
  offsetDims := [1]
  collapsedSliceDims := [0]
  operandBatchingDims := []
  startIndicesBatchingDims := []
  startIndexMap := [0]
  indexVectorDim := 1
  sliceSizes := ![1, 256]
  wf := gather_S4096x256_S1024x1_S1024x256_1_0_n_n_0_1_1256_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

class Facts : Prop extends Facts₀ where

variable [Facts]
-- ==== Proof.KR0Base.lean ====
/-
  The first pallas_call (grid 2 x 16: two blocks of 2048 output rows, sixteen blocks of 2048 columns of the
  neighbour matrix each) — what its three kinds of grid point share. Along the second grid axis k the body keeps
  a running aggregate in a scratch buffer: at k = 0 it first clears it, at every k it adds the product of the
  current blocks, and at k = 15 it also computes the layer from the finished aggregate and stores the output
  block. So a point is of kind A (k = 0), B (0 < k < 15) or C (k = 15); the output window is idle at A and B.
-/
import proofs.«120716_j6485400617280_2_alg».proof.Proof.Gen.Kernel.Launch
import proofs.«120716_j6485400617280_2_alg».proof.Proof.Gen.Kernel.Skeleton
import proofs.«120716_j6485400617280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Before
variable {c : Dev nD} (dat : Dat τ (Elt F) Unit ℕ (UR sig nD τ) ℕ cfg0 c)
/- An input window's staging buffer holds its block at every point, fetched there or not: where it is not
   fetched the block index has not moved and the body left the block in place. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end Before

/-! ## The body's two conditions, in closed form over the grid -/

/-- "this is the first column block" (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "this is the last column block" (k = 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the pipeline calls the body with -/

abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
/-- The scratch buffer that carries the aggregate from one point to the next. -/
abbrev scM0 : Memref sig .tc .vmem S2048x128 .f32 := Memref.whole cc0_scratch0
/-- Views through which a buffer's contents after a list of stores are stated. -/
abbrev VS0 : View sig .tc .vmem S2048x128 .f32 := scM0.view
abbrev VO0_5 : View sig .tc .vmem S2048x256 .f32 := (Memref.whole cc0_stg5_0 : Memref sig .tc .vmem S2048x256 .f32).view

/-- The core's scoped buffers that are neither this kernel's staging buffers nor its scratch, each at some contents:
    they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the scratch buffer singled out. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole, others0]; try rfl

end Cert.Kernel.Hand

end
-- ==== Proof.KR0Runs.lean ====
/-
  The first pallas_call's body run once per kind of grid point (A: k = 0, B: 0 < k < 15, C: k = 15), on whole
  staging buffers: the inputs' at their contents, the scratch at what the point before left (at anything at a
  point of kind A, which clears it first), the output's at anything. Each run ends with the inputs' buffers as
  they were and each buffer the body stored into at its stores written, the stores listed as pieces; the lists are
  found by running the body.
-/
import proofs.«120716_j6485400617280_2_alg».proof.Proof.KR0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 8000000 in
/-- Kind A: the scratch is cleared, then the product of the two blocks is added to it. -/
noncomputable def kernelRun0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) :
    { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, fun E K => ?run⟩
  case run =>
    simp only [cc0__layer0_kernel_eq_skeleton]; unfold cc0__layer0_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 8000000 in
/-- Kind B: the product of the two blocks is added to what the scratch holds. -/
noncomputable def kernelRun0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) :
    { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, fun E K => ?run⟩
  case run =>
    simp only [cc0__layer0_kernel_eq_skeleton]; unfold cc0__layer0_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 8000000 in
/-- Kind C: the last product is added, then the layer is computed from the nodes' own rows, the two weight halves and
    the finished aggregate, and stored over the output block. -/
noncomputable def kernelRun0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 : Vec F S2048x128 .f32) (x2 : Vec F S2048x128 .f32)
    (x3 x4 : Vec F S128x256 .f32) (xs : Vec F S2048x128 .f32) :
    Σ' (L5 : List (View.Piece (Elt F) S2048x256 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.Kernel.Hand

end
-- ==== Proof.KR0.lean ====
/-
  The first pallas_call as proof data for the pipeline. After the body at point t the scratch buffer holds the
  running aggregate: at a point of kind A the product of the point's two blocks added to the cleared buffer, at a
  point of kind B or C the product added to what the point before left. The output window's buffer holds, after a
  point of kind C, the layer computed from that finished aggregate; at the other points the window is idle and its
  buffer is handed back as found. The region invariant carries the scratch at those contents between points.
-/
import proofs.«120716_j6485400617280_2_alg».proof.Proof.KR0Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) (y : S2048x128.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S2048x128.size (by sl_kernel_rfl) y

/-- The scratch after a point of kind A. -/
def sout0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) : Vec F S2048x128 .f32 :=
  VS0.read (Elt F) (VS0.writes (Elt F) VS0.junk (kernelRun0_A c i arg2 harg2 arg3 harg3 arg4 harg4 arg5 harg5 arg6 harg6 arg7 harg7 arg8 harg8 hc0 hc1 x0 x1).1)

theorem scover0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) (y : S2048x128.Idx) :
    ∃ pc ∈ (kernelRun0_B c i arg2 harg2 arg3 harg3 arg4 harg4 arg5 harg5 arg6 harg6 arg7 harg7 arg8 harg8 hc0 hc1 x0 x1 xs).1, y ∈ pc.1.set :=
  View.cover_of_tiledL (kernelRun0_B c i arg2 harg2 arg3 harg3 arg4 harg4 arg5 harg5 arg6 harg6 arg7 harg7 arg8 harg8 hc0 hc1 x0 x1 xs).1 S2048x128.size (by sl_kernel_rfl) y

/-- The scratch after a point of kind B, over what the point before left. -/
def sout0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) : Vec F S2048x128 .f32 :=
  VS0.read (Elt F) (VS0.writes (Elt F) VS0.junk (kernelRun0_B c i arg2 harg2 arg3 harg3 arg4 harg4 arg5 harg5 arg6 harg6 arg7 harg7 arg8 harg8 hc0 hc1 x0 x1 xs).1)

theorem cover0_C_5 (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) (y : S2048x256.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S2048x256.size (by sl_kernel_rfl) y

/-- The output window's buffer after a point of kind C. -/
def out0_C_5 (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) : Vec F S2048x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs).1)

theorem scover0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) (y : S2048x128.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S2048x128.size (by sl_kernel_rfl) y

/-- The scratch after a point of kind C. -/
def sout0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) : Vec F S2048x128 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-- What stands for the output window's buffer at a point where the window is idle: never consulted. -/
def idle5 : Vec F S2048x256 .f32 := VO0_5.read (Elt F) VO0_5.junk

/-! ## The same at a grid point, on the memrefs the pipeline calls the body with and the point's blocks -/

def ptA (c : Dev nD) (t : Fin cfg0.N) (h0 : t.val % 16 = 0) (h1 : ¬t.val % 16 = 15) : Vec F S2048x128 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t)

def ptB (c : Dev nD) (t : Fin cfg0.N) (h0 : ¬t.val % 16 = 0) (h1 : ¬t.val % 16 = 15) (xs : Vec F S2048x128 .f32) : Vec F S2048x128 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) xs

def ptC5 (c : Dev nD) (t : Fin cfg0.N) (h0 : ¬t.val % 16 = 0) (h1 : t.val % 16 = 15) (xs : Vec F S2048x128 .f32) : Vec F S2048x256 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

def ptCS (c : Dev nD) (t : Fin cfg0.N) (h0 : ¬t.val % 16 = 0) (h1 : t.val % 16 = 15) (xs : Vec F S2048x128 .f32) : Vec F S2048x128 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

/-! ## Point by point -/

/-- What the output window's buffer and the scratch hold after the body at position n. -/
def outsAt0 (c : Dev nD) : (n : ℕ) → n < cfg0.N → Vec F S2048x256 .f32 × Vec F S2048x128 .f32
  | 0, hn => (idle5, ptA V c ⟨0, hn⟩ (Nat.zero_mod _) (by show ¬(0 % 16 = 15); decide))
  | n + 1, hn =>
    if h0 : (n + 1) % 16 = 0 then
      (idle5, ptA V c ⟨n + 1, hn⟩ h0 (by dsimp only; omega))
    else
      if h1 : (n + 1) % 16 = 15 then
        (ptC5 V c ⟨n + 1, hn⟩ h0 h1 (outsAt0 c n (Nat.lt_of_succ_lt hn)).2, ptCS V c ⟨n + 1, hn⟩ h0 h1 (outsAt0 c n (Nat.lt_of_succ_lt hn)).2)
      else
        (idle5, ptB V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (idle5, ptA V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idle5, ptB V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (ptC5 V c t h0 h1 (outsAt0 V c (t.val - 1) (Nat.lt_of_le_of_lt (Nat.sub_le _ _) t.isLt)).2,
      ptCS V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position n: before the first point the class's (the scratch at anything); afterwards
    the scratch at what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ (dat0 V c).leavesExact 5 t)

set_option maxHeartbeats 8000000 in
/-- The body at any point. The inputs' buffers hold their blocks; the closed forms say of which kind the point is;
    the invariant hands the body the scratch at what the point before left (at anything at the very first point)
    and takes it back at this point's contents; at a point of kind A or B the output window's buffer goes back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4]
  have hN : t.val < 32 := lt_of_lt_of_eq t.isLt (show cfg0.N = 32 from N_0)
  by_cases h0 : t.val % 16 = 0
  · have h1 : ¬t.val % 16 = 15 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold ptA sout0_A; dsimp only
    by_cases hz : t.val = 0
    · rw [PhiS_castSucc V c t, PhiS_zero V c _ _ hz, PhiA0_eq]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    by_cases h1 : t.val % 16 = 15
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold ptC5 ptCS out0_C_5 sout0_C; dsimp only
      rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold ptB sout0_B; dsimp only
      rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hot⟩, Hg⟩
  isplitr [Hg]
  · isplitl [HS0]
    · iexists _; iexact HS0
    iexact Hot
  iexact Hg

end Cert.Kernel.Hand

end
-- ==== Proof.KR1.lean ====
/-
  The second pallas_call (one layer in one shot, two grid points of 512 output rows each) as proof data for the
  pipeline: at point t every input window's staging buffer holds its block of the array the region found, the
  body stores one value over the whole output block, and that value is the body's arithmetic of the five input
  blocks. Nothing is kept between points.
-/
import proofs.«120716_j6485400617280_2_alg».proof.Proof.Gen.Kernel.Launch
import proofs.«120716_j6485400617280_2_alg».proof.Proof.Gen.Kernel.Skeleton
import proofs.«120716_j6485400617280_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Before
variable {c : Dev nD} (dat : Dat τ (Elt F) Unit ℕ (UR sig nD τ) ℕ cfg1 c)

/-- An input window's staging buffer holds its block at every point, fetched there or not: where it is not
    fetched the block index has not moved and the body left the block in place. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end Before

/-! ## The body's accesses: each buffer whole -/

abbrev r1_0 : Rect S512x4096 := Rect.unit (s := S512x4096) ![0, 0] S512x4096.size inb_S512x4096_S512x4096_0_0
abbrev r1_1 : Rect S4096x256 := Rect.unit (s := S4096x256) ![0, 0] S4096x256.size inb_S4096x256_S4096x256_0_0
abbrev r1_2 : Rect S512x256 := Rect.unit (s := S512x256) ![0, 0] S512x256.size inb_S512x256_S512x256_0_0
abbrev r1_3 : Rect S256x256 := Rect.unit (s := S256x256) ![0, 0] S256x256.size inb_S256x256_S256x256_0_0

/-- What the body leaves in the output window's buffer, from the five input blocks: its one store. -/
def out1_5 (x0 : Vec F S512x4096 .f32) (x1 : Vec F S4096x256 .f32) (x2 : Vec F S512x256 .f32) (x3 x4 : Vec F S256x256 .f32) : Vec F S512x256 .f32 :=
  View.canon [⟨r1_2, k1_pay1 (View.ld x0 r1_0) (View.ld x1 r1_1) (View.ld x2 r1_2) (View.ld x3 r1_3) (View.ld x4 r1_3)⟩]

/-- The store is over the whole buffer. -/
theorem cover1_5 (p0 : Vec F S512x256 .f32) (y : S512x256.Idx) :
    ∃ pc ∈ ([⟨r1_2, p0⟩] : List (View.Piece (Elt F) S512x256 .f32)), y ∈ pc.1.set :=
  View.cover_of_tiled [⟨r1_2, p0⟩] S512x256.size (by rfl) y

set_option maxHeartbeats 4000000 in
/-- The body on whole staging buffers, the inputs' at contents xW and the output's at anything, runs to the
    continuation with the inputs' as they were and the output's at out1_5 of the inputs'. -/
theorem sound_kernel1 (c : Dev nD) (E : Set ℕ) (i : grid1.Coords)
    (arg1 : Memref sig .tc .vmem S512x4096 .f32) (harg1 : arg1.IsWhole) (arg2 : Memref sig .tc .vmem S4096x256 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S512x256 .f32) (harg6 : arg6.IsWhole)
    (x0 : Vec F S512x4096 .f32) (x1 : Vec F S4096x256 .f32) (x2 : Vec F S512x256 .f32) (x3 x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer1_kernel i arg1 harg1 arg2 harg2 arg3 harg3 arg4 harg4 arg5 harg5 arg6 harg6) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- The arrays as the region finds them; after the body at point t each input's buffer at its block and the
    output's at out1_5 of the input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole program: host operations, the first pallas_call, host operations, the second pallas_call — run segment
  by segment. Between two segments a core holds every unscoped buffer at known contents: the launch memory, then
  what a stretch of host operations computes from it, then the same with a region's arrays at what its write-backs
  leave. No segment writes an argument array, so each ends as launched; the result array ends at what the second
  region's write-backs leave.
-/
import proofs.«120716_j6485400617280_2_alg».proof.Proof.KR0
import proofs.«120716_j6485400617280_2_alg».proof.Proof.KR1
import proofs.«120716_j6485400617280_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each segment leaves alone -/

theorem W1_keep (c : Dev nD) (r : Ref sig .tc) (h : r ∉ hostOps0_W) : W1 m c (Proc.devRef .tc r) = m ((c : Thread nD τ).loc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h

/-- An array the first region only reads is, after it, what it was before. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An array the second region only reads is, after it, what it was before. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The arguments end as launched -/

theorem W4_main_arg0 (c : Dev nD) : W4 m c (Proc.devRef .tc main_arg0) = m ((c : Thread nD τ).loc main_arg0) :=
  (W4_of_ne m c main_arg0 (by decide)).trans <| (W3_keep m c main_arg0 (by decide)).trans <|
    (W2_in m c 1 rfl).trans (W1_keep m c main_arg0 (by decide))
theorem W4_main_arg1 (c : Dev nD) : W4 m c (Proc.devRef .tc main_arg1) = m ((c : Thread nD τ).loc main_arg1) :=
  (W4_of_ne m c main_arg1 (by decide)).trans <| (W3_keep m c main_arg1 (by decide)).trans <|
    (W2_in m c 0 rfl).trans (W1_keep m c main_arg1 (by decide))
theorem W4_main_arg2 (c : Dev nD) : W4 m c (Proc.devRef .tc main_arg2) = m ((c : Thread nD τ).loc main_arg2) :=
  (W4_in m c 0 rfl).trans <| (W3_keep m c main_arg2 (by decide)).trans <|
    (W2_of_ne m c main_arg2 (by decide)).trans (W1_keep m c main_arg2 (by decide))
theorem W4_main_arg3 (c : Dev nD) : W4 m c (Proc.devRef .tc main_arg3) = m ((c : Thread nD τ).loc main_arg3) :=
  (W4_of_ne m c main_arg3 (by decide)).trans <| (W3_keep m c main_arg3 (by decide)).trans <|
    (W2_of_ne m c main_arg3 (by decide)).trans (W1_keep m c main_arg3 (by decide))
theorem W4_main_arg4 (c : Dev nD) : W4 m c (Proc.devRef .tc main_arg4) = m ((c : Thread nD τ).loc main_arg4) :=
  (W4_of_ne m c main_arg4 (by decide)).trans <| (W3_keep m c main_arg4 (by decide)).trans <|
    (W2_of_ne m c main_arg4 (by decide)).trans (W1_keep m c main_arg4 (by decide))
theorem W4_main_arg5 (c : Dev nD) : W4 m c (Proc.devRef .tc main_arg5) = m ((c : Thread nD τ).loc main_arg5) :=
  (W4_of_ne m c main_arg5 (by decide)).trans <| (W3_keep m c main_arg5 (by decide)).trans <|
    (W2_of_ne m c main_arg5 (by decide)).trans (W1_keep m c main_arg5 (by decide))
theorem W4_main_arg6 (c : Dev nD) : W4 m c (Proc.devRef .tc main_arg6) = m ((c : Thread nD τ).loc main_arg6) :=
  (W4_of_ne m c main_arg6 (by decide)).trans <| (W3_keep m c main_arg6 (by decide)).trans <|
    (W2_of_ne m c main_arg6 (by decide)).trans (W1_keep m c main_arg6 (by decide))

/-! ## The proof data family and the thread state -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered with every unscoped buffer at W1, left with them at W2. Its arrays are taken out of
    the unscoped buffers and put back at the exit contents; the generator register and the scoped rest go into the
    region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at W3, left with them at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    in the final memory every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

/-- The same run with the result array named: it ends at what the second region's write-backs leave. -/
theorem run_value : θ_run defs (onTc (τ := τ) (main (F := F))) ⟨m, fun _ => 0, ρ⟩ (fun r => ∀ c : Dev nD,
      r.2.mem ((c.tc : Thread nD τ).loc main_v23) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v23 (by decide))).trans (W4_arr m c 5),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.Kernel.Hand

end
-- ==== Proof.R0Base.lean ====
/-
  The first pallas_call (grid 2 x 16: two blocks of 2048 output rows, sixteen blocks of 2048 columns of the
  neighbour matrix each) — what its three kinds of grid point share. Along the second grid axis k the body keeps
  a running aggregate in a scratch buffer: at k = 0 it first clears it, at every k it adds the product of the
  current blocks, and at k = 15 it also computes the layer from the finished aggregate and stores the output
  block. So a point is of kind A (k = 0), B (0 < k < 15) or C (k = 15); the output window is idle at A and B.
-/
import proofs.«120716_j6485400617280_2_alg».proof.Proof.Gen.KernelIdeal.Launch
import proofs.«120716_j6485400617280_2_alg».proof.Proof.Gen.KernelIdeal.Skeleton
import proofs.«120716_j6485400617280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

section Before
variable {c : Dev nD} (dat : Dat τ (Elt F) Unit ℕ (UR sig nD τ) ℕ cfg0 c)
/- An input window's staging buffer holds its block at every point, fetched there or not: where it is not
   fetched the block index has not moved and the body left the block in place. -/
theorem before0_0_of (hA : dat.A 0 = V c (Pipeline.arrRef spec0 0)) (hafter : ∀ t, dat.after 0 t = iblk0 V c 0 t) (t : Fin cfg0.N) (d) :
    dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of (hA : dat.A 1 = V c (Pipeline.arrRef spec0 1)) (hafter : ∀ t, dat.after 1 t = iblk0 V c 1 t) (t : Fin cfg0.N) (d) :
    dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of (hA : dat.A 2 = V c (Pipeline.arrRef spec0 2)) (hafter : ∀ t, dat.after 2 t = iblk0 V c 2 t) (t : Fin cfg0.N) (d) :
    dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of (hA : dat.A 3 = V c (Pipeline.arrRef spec0 3)) (hafter : ∀ t, dat.after 3 t = iblk0 V c 3 t) (t : Fin cfg0.N) (d) :
    dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of (hA : dat.A 4 = V c (Pipeline.arrRef spec0 4)) (hafter : ∀ t, dat.after 4 t = iblk0 V c 4 t) (t : Fin cfg0.N) (d) :
    dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
end Before

/-! ## The body's two conditions, in closed form over the grid -/

/-- "this is the first column block" (k = 0). -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- "this is the last column block" (k = 15). -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the output window is idle -/

theorem idleAt0_5 : ∀ t : Fin cfg0.N, ¬cond0_1 (grid0.coords t) → cfg0.idle 5 (grid0.coords t) = true := by decide +kernel
theorem noFlush0_5 : ∀ t : Fin cfg0.N, ¬cond0_1 (grid0.coords t) → (cfg0.win 5).flush t = false := by decide +kernel
theorem liveAt0_5 : ∀ t : Fin cfg0.N, cond0_1 (grid0.coords t) → cfg0.idle 5 (grid0.coords t) = false := by decide +kernel

/-! ## The memrefs the pipeline calls the body with -/

abbrev ms0_0 (t : Fin cfg0.N) : Memref sig .tc .vmem S2048x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2048x256 .f32 := win0_5.stage (cfg0.slots t 5)
abbrev hs0_5 (t : Fin cfg0.N) : (ms0_5 t).IsWhole := hstage0_5 ((cfg0.slots t 5).cast nbuf0_5)
/-- The scratch buffer that carries the aggregate from one point to the next. -/
abbrev scM0 : Memref sig .tc .vmem S2048x128 .f32 := Memref.whole cc0_scratch0
/-- Views through which a buffer's contents after a list of stores are stated. -/
abbrev VS0 : View sig .tc .vmem S2048x128 .f32 := scM0.view
abbrev VO0_5 : View sig .tc .vmem S2048x256 .f32 := (Memref.whole cc0_stg5_0 : Memref sig .tc .vmem S2048x256 .f32).view

/-- The core's scoped buffers that are neither this kernel's staging buffers nor its scratch, each at some contents:
    they ride through the region untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f))

/-- The class invariant with the scratch buffer singled out. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; simp only [scM0, owns_whole, others0]; try rfl

end Cert.KernelIdeal.Hand

end
-- ==== Proof.R0Runs.lean ====
/-
  The first pallas_call's body run once per kind of grid point (A: k = 0, B: 0 < k < 15, C: k = 15), on whole
  staging buffers: the inputs' at their contents, the scratch at what the point before left (at anything at a
  point of kind A, which clears it first), the output's at anything. Each run ends with the inputs' buffers as
  they were and each buffer the body stored into at its stores written, the stores listed as pieces; the lists are
  found by running the body.
-/
import proofs.«120716_j6485400617280_2_alg».proof.Proof.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 8000000 in
/-- Kind A: the scratch is cleared, then the product of the two blocks is added to it. -/
noncomputable def kernelRun0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) :
    { LS : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg8 fullShare d)
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, fun E K => ?run⟩
  case run =>
    simp only [cc0__layer0_kernel_eq_skeleton]; unfold cc0__layer0_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 8000000 in
/-- Kind B: the product of the two blocks is added to what the scratch holds. -/
noncomputable def kernelRun0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) :
    { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg8 fullShare xs
            ∗ (iprop(owns (c : Thread nD τ) arg2 fullShare x0 ∗ owns (c : Thread nD τ) arg3 fullShare x1
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, fun E K => ?run⟩
  case run =>
    simp only [cc0__layer0_kernel_eq_skeleton]; unfold cc0__layer0_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 8000000 in
/-- Kind C: the last product is added, then the layer is computed from the nodes' own rows, the two weight halves and
    the finished aggregate, and stored over the output block. -/
noncomputable def kernelRun0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 : Vec F S2048x128 .f32) (x2 : Vec F S2048x128 .f32)
    (x3 x4 : Vec F S128x256 .f32) (xs : Vec F S2048x128 .f32) :
    Σ' (L5 : List (View.Piece (Elt F) S2048x256 .f32)), { LS : List (View.Piece (Elt F) S2048x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS)) -∗ K ⟨⟩))
          ⊢ wp frame (wpE (defs₀ (F := F)) Variants.none c none) E (cc0__layer0_kernel i arg2 harg2 arg3 harg3 arg4 harg4 arg5 harg5 arg6 harg6 arg7 harg7 arg8 harg8) K } := by
  refine ⟨?_, ?_, fun E K => ?run⟩
  case run =>
    simp only [cc0__layer0_kernel_eq_skeleton]; unfold cc0__layer0_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs, %hfs, HS⟩, Hk⟩
    obtain rfl := harg2.eq_unread hf0; obtain rfl := harg3.eq_unread hf1; obtain rfl := harg4.eq_unread hf2
    obtain rfl := harg5.eq_unread hf3; obtain rfl := harg6.eq_unread hf4; obtain rfl := harg8.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact HS

end Cert.KernelIdeal.Hand

end
-- ==== Proof.R0.lean ====
/-
  The first pallas_call as proof data for the pipeline. After the body at point t the scratch buffer holds the
  running aggregate: at a point of kind A the product of the point's two blocks added to the cleared buffer, at a
  point of kind B or C the product added to what the point before left. The output window's buffer holds, after a
  point of kind C, the layer computed from that finished aggregate; at the other points the window is idle and its
  buffer is handed back as found. The region invariant carries the scratch at those contents between points.
-/
import proofs.«120716_j6485400617280_2_alg».proof.Proof.R0Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each kind of point leaves -/

theorem scover0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) (y : S2048x128.Idx) :
    ∃ pc ∈ (kernelRun0_A c i arg2 harg2 arg3 harg3 arg4 harg4 arg5 harg5 arg6 harg6 arg7 harg7 arg8 harg8 hc0 hc1 x0 x1).1, y ∈ pc.1.set :=
  View.cover_of_tiledL (kernelRun0_A c i arg2 harg2 arg3 harg3 arg4 harg4 arg5 harg5 arg6 harg6 arg7 harg7 arg8 harg8 hc0 hc1 x0 x1).1 S2048x128.size (by sl_kernel_rfl) y

/-- The scratch after a point of kind A. -/
def sout0_A (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) : Vec F S2048x128 .f32 :=
  VS0.read (Elt F) (VS0.writes (Elt F) VS0.junk (kernelRun0_A c i arg2 harg2 arg3 harg3 arg4 harg4 arg5 harg5 arg6 harg6 arg7 harg7 arg8 harg8 hc0 hc1 x0 x1).1)

theorem scover0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) (y : S2048x128.Idx) :
    ∃ pc ∈ (kernelRun0_B c i arg2 harg2 arg3 harg3 arg4 harg4 arg5 harg5 arg6 harg6 arg7 harg7 arg8 harg8 hc0 hc1 x0 x1 xs).1, y ∈ pc.1.set :=
  View.cover_of_tiledL (kernelRun0_B c i arg2 harg2 arg3 harg3 arg4 harg4 arg5 harg5 arg6 harg6 arg7 harg7 arg8 harg8 hc0 hc1 x0 x1 xs).1 S2048x128.size (by sl_kernel_rfl) y

/-- The scratch after a point of kind B, over what the point before left. -/
def sout0_B (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) : Vec F S2048x128 .f32 :=
  VS0.read (Elt F) (VS0.writes (Elt F) VS0.junk (kernelRun0_B c i arg2 harg2 arg3 harg3 arg4 harg4 arg5 harg5 arg6 harg6 arg7 harg7 arg8 harg8 hc0 hc1 x0 x1 xs).1)

theorem cover0_C_5 (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) (y : S2048x256.Idx) :
    ∃ pc ∈ (kernelRun0_C c i arg2 harg2 arg3 harg3 arg4 harg4 arg5 harg5 arg6 harg6 arg7 harg7 arg8 harg8 hc0 hc1 x0 x1 x2 x3 x4 xs).1, y ∈ pc.1.set :=
  View.cover_of_tiledL (kernelRun0_C c i arg2 harg2 arg3 harg3 arg4 harg4 arg5 harg5 arg6 harg6 arg7 harg7 arg8 harg8 hc0 hc1 x0 x1 x2 x3 x4 xs).1 S2048x256.size (by sl_kernel_rfl) y

/-- The output window's buffer after a point of kind C. -/
def out0_C_5 (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) : Vec F S2048x256 .f32 :=
  VO0_5.read (Elt F) (VO0_5.writes (Elt F) VO0_5.junk (kernelRun0_C c i arg2 harg2 arg3 harg3 arg4 harg4 arg5 harg5 arg6 harg6 arg7 harg7 arg8 harg8 hc0 hc1 x0 x1 x2 x3 x4 xs).1)

theorem scover0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) (y : S2048x128.Idx) :
    ∃ pc ∈ (kernelRun0_C c i arg2 harg2 arg3 harg3 arg4 harg4 arg5 harg5 arg6 harg6 arg7 harg7 arg8 harg8 hc0 hc1 x0 x1 x2 x3 x4 xs).2.1, y ∈ pc.1.set :=
  View.cover_of_tiledL (kernelRun0_C c i arg2 harg2 arg3 harg3 arg4 harg4 arg5 harg5 arg6 harg6 arg7 harg7 arg8 harg8 hc0 hc1 x0 x1 x2 x3 x4 xs).2.1 S2048x128.size (by sl_kernel_rfl) y

/-- The scratch after a point of kind C. -/
def sout0_C (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) : Vec F S2048x128 .f32 :=
  VS0.read (Elt F) (VS0.writes (Elt F) VS0.junk (kernelRun0_C c i arg2 harg2 arg3 harg3 arg4 harg4 arg5 harg5 arg6 harg6 arg7 harg7 arg8 harg8 hc0 hc1 x0 x1 x2 x3 x4 xs).2.1)

/-- What stands for the output window's buffer at a point where the window is idle: never consulted. -/
def idle5 : Vec F S2048x256 .f32 := VO0_5.read (Elt F) VO0_5.junk

/-! ## The same at a grid point, on the memrefs the pipeline calls the body with and the point's blocks -/

def ptA (c : Dev nD) (t : Fin cfg0.N) (h0 : t.val % 16 = 0) (h1 : ¬t.val % 16 = 15) : Vec F S2048x128 .f32 :=
  sout0_A c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) ((hcond0_0 t).mpr h0) (fun h => h1 ((hcond0_1 t).mp h)) (iblk0 V c 0 t) (iblk0 V c 1 t)

def ptB (c : Dev nD) (t : Fin cfg0.N) (h0 : ¬t.val % 16 = 0) (h1 : ¬t.val % 16 = 15) (xs : Vec F S2048x128 .f32) : Vec F S2048x128 .f32 :=
  sout0_B c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) (fun h => h1 ((hcond0_1 t).mp h)) (iblk0 V c 0 t) (iblk0 V c 1 t) xs

def ptC5 (c : Dev nD) (t : Fin cfg0.N) (h0 : ¬t.val % 16 = 0) (h1 : t.val % 16 = 15) (xs : Vec F S2048x128 .f32) : Vec F S2048x256 .f32 :=
  out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

def ptCS (c : Dev nD) (t : Fin cfg0.N) (h0 : ¬t.val % 16 = 0) (h1 : t.val % 16 = 15) (xs : Vec F S2048x128 .f32) : Vec F S2048x128 .f32 :=
  sout0_C c (grid0.coords t) (ms0_0 t) (hs0_0 t) (ms0_1 t) (hs0_1 t) (ms0_2 t) (hs0_2 t) (ms0_3 t) (hs0_3 t) (ms0_4 t) (hs0_4 t) (ms0_5 t) (hs0_5 t) scM0 (Memref.isWhole_whole _) (fun h => h0 ((hcond0_0 t).mp h)) ((hcond0_1 t).mpr h1) (iblk0 V c 0 t) (iblk0 V c 1 t) (iblk0 V c 2 t) (iblk0 V c 3 t) (iblk0 V c 4 t) xs

/-! ## Point by point -/

/-- What the output window's buffer and the scratch hold after the body at position n. -/
def outsAt0 (c : Dev nD) : (n : ℕ) → n < cfg0.N → Vec F S2048x256 .f32 × Vec F S2048x128 .f32
  | 0, hn => (idle5, ptA V c ⟨0, hn⟩ (Nat.zero_mod _) (by show ¬(0 % 16 = 15); decide))
  | n + 1, hn =>
    if h0 : (n + 1) % 16 = 0 then
      (idle5, ptA V c ⟨n + 1, hn⟩ h0 (by dsimp only; omega))
    else
      if h1 : (n + 1) % 16 = 15 then
        (ptC5 V c ⟨n + 1, hn⟩ h0 h1 (outsAt0 c n (Nat.lt_of_succ_lt hn)).2, ptCS V c ⟨n + 1, hn⟩ h0 h1 (outsAt0 c n (Nat.lt_of_succ_lt hn)).2)
      else
        (idle5, ptB V c ⟨n + 1, hn⟩ h0 h1 (outsAt0 c n (Nat.lt_of_succ_lt hn)).2)

theorem outsAt0_A (c : Dev nD) (t : Fin cfg0.N) (h0 : t.val % 16 = 0) (h1 : ¬t.val % 16 = 15) :
    outsAt0 V c t.val t.isLt = (idle5, ptA V c t h0 h1) := by
  obtain ⟨n, hn⟩ := t
  cases n with
  | zero => exact rfl
  | succ n => exact (dif_pos h0).trans rfl

theorem outsAt0_B (c : Dev nD) (t : Fin cfg0.N) (h0 : ¬t.val % 16 = 0) (h1 : ¬t.val % 16 = 15) :
    outsAt0 V c t.val t.isLt = (idle5, ptB V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (ptC5 V c t h0 h1 (outsAt0 V c (t.val - 1) (Nat.lt_of_le_of_lt (Nat.sub_le _ _) t.isLt)).2,
      ptCS V c t h0 h1 (outsAt0 V c (t.val - 1) (Nat.lt_of_le_of_lt (Nat.sub_le _ _) t.isLt)).2) := by
  obtain ⟨n, hn⟩ := t
  cases n with
  | zero => exact absurd (Nat.zero_mod _) h0
  | succ n => exact (dif_neg h0).trans ((dif_pos h1).trans rfl)

/-- The region invariant before position n: before the first point the class's (the scratch at anything); afterwards
    the scratch at what the point before left, the other scoped buffers at anything, the generator register at some state. -/
def PhiS (c : Dev nD) : (n : ℕ) → n ≤ cfg0.N → sProp 𝕄
  | 0, _ => Pipeline.ΦA spec0 c
  | n + 1, hn => iprop((owns (c : Thread nD τ) scM0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM0 fullShare ((outsAt0 V c n hn).2) ∗ others0 c) ∗ (∃ r, prngReg c r)) := rfl

theorem PhiS_pos (c : Dev nD) (n : ℕ) (h : n ≤ cfg0.N) (hz : n ≠ 0) :
    PhiS V c n h = iprop((owns (c : Thread nD τ) scM0 fullShare ((outsAt0 V c (n - 1) (by omega)).2) ∗ others0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ (dat0 V c).leavesExact 5 t)

set_option maxHeartbeats 8000000 in
/-- The body at any point. The inputs' buffers hold their blocks; the closed forms say of which kind the point is;
    the invariant hands the body the scratch at what the point before left (at anything at the very first point)
    and takes it back at this point's contents; at a point of kind A or B the output window's buffer goes back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [after0_0, after0_1, after0_2, after0_3, after0_4]
  have hN : t.val < 32 := lt_of_lt_of_eq t.isLt (show cfg0.N = 32 from N_0)
  by_cases h0 : t.val % 16 = 0
  · have h1 : ¬t.val % 16 = 15 := by omega
    rw [Dat.leavesExact_idle (dat0 V c) 5 t (idleAt0_5 t (fun h => h1 ((hcond0_1 t).mp h))) (noFlush0_5 t (fun h => h1 ((hcond0_1 t).mp h)))]
    rw [outsAt0_A V c t h0 h1]
    unfold ptA sout0_A; dsimp only
    by_cases hz : t.val = 0
    · rw [PhiS_castSucc V c t, PhiS_zero V c _ _ hz, PhiA0_eq]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_A c (grid0.coords t) _ _ _ _ _ _ _ _ _ _ _ _ _ _ ((hcond0_0 t).mpr h0) (fun h => h1 ((hcond0_1 t).mp h)) (iblk0 V c 0 t) (iblk0 V c 1 t)).2 Set.univ _)
      isplitl [H0]; · iexact H0
      isplitl [H1]; · iexact H1
      isplitl [HS0]; · iexists _; iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_A c _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5
  · have hz : t.val ≠ 0 := fun h => h0 (by rw [h])
    by_cases h1 : t.val % 16 = 15
    · rw [show (dat0 V c).leavesExact 5 t = owns (c : Thread nD τ) (ms0_5 t) fullShare ((dat0 V c).after 5 t) from by
        unfold Dat.leavesExact; rw [liveAt0_5 t ((hcond0_1 t).mpr h1)], after0_5]
      rw [outsAt0_C V c t h0 h1]
      unfold ptC5 ptCS out0_C_5 sout0_C; dsimp only
      rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, ⟨%d5, H5⟩⟩
      iapply ((kernelRun0_C c (grid0.coords t) _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) _).2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      iintro ⟨H0, H1, H2, H3, H4, ⟨%e5, H5⟩, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_C c _ _ _ _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover0_C_5 c _ _ _ _ _ _ _ _ _ _ _ _ _ _ _ _ _ _ _ _ _ _ _)
    · rw [Dat.leavesExact_idle (dat0 V c) 5 t (idleAt0_5 t (fun h => h1 ((hcond0_1 t).mp h))) (noFlush0_5 t (fun h => h1 ((hcond0_1 t).mp h)))]
      rw [outsAt0_B V c t h0 h1]
      unfold ptB sout0_B; dsimp only
      rw [PhiS_castSucc V c t, PhiS_pos V c _ _ hz]
      iintro ⟨⟨⟨HS0, Hot⟩, Hg⟩, Ho, ⟨%d0, H0⟩, ⟨%d1, H1⟩, ⟨%d2, H2⟩, ⟨%d3, H3⟩, ⟨%d4, H4⟩, H5⟩
      iapply ((kernelRun0_B c (grid0.coords t) _ _ _ _ _ _ _ _ _ _ _ _ _ _ (fun h => h0 ((hcond0_0 t).mp h)) (fun h => h1 ((hcond0_1 t).mp h)) (iblk0 V c 0 t) (iblk0 V c 1 t) _).2 Set.univ _)
      isplitl [H0]; · iexact H0
      isplitl [H1]; · iexact H1
      isplitl [HS0]; · iexact HS0
      iintro ⟨H0, H1, ⟨%es0, HS0⟩⟩
      isplitl [HS0 Hot Hg]
      · isplitr [Hg]
        · isplitl [HS0]
          · unfold owns; iexists _; isplitr
            swap; · iexact HS0
            ipureintro; exact View.read_writes_of_cover _ _ _ _ _ (scover0_B c _ _ _ _ _ _ _ _ _ _ _ _ _ _ _ _ _ _ _ _)
          iexact Hot
        iexact Hg
      isplitl [Ho]; · iexact Ho
      isplitl [H0]; · iexact H0
      isplitl [H1]; · iexact H1
      isplitl [H2]; · iexact H2
      isplitl [H3]; · iexact H3
      isplitl [H4]; · iexact H4
      iexact H5

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 32 := N_0; omega), PhiA0_eq]
  iintro ⟨⟨HS0, Hot⟩, Hg⟩
  isplitr [Hg]
  · isplitl [HS0]
    · iexists _; iexact HS0
    iexact Hot
  iexact Hg

end Cert.KernelIdeal.Hand

end
-- ==== Proof.R1.lean ====
/-
  The second pallas_call (one layer in one shot, two grid points of 512 output rows each) as proof data for the
  pipeline: at point t every input window's staging buffer holds its block of the array the region found, the
  body stores one value over the whole output block, and that value is the body's arithmetic of the five input
  blocks. Nothing is kept between points.
-/
import proofs.«120716_j6485400617280_2_alg».proof.Proof.Gen.KernelIdeal.Launch
import proofs.«120716_j6485400617280_2_alg».proof.Proof.Gen.KernelIdeal.Skeleton
import proofs.«120716_j6485400617280_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of core c's buffers when the region is entered
variable (V : (c : Dev nD) → (b : Ref sig .tc) → Buf (Elt F) ((c : Thread nD τ).loc b))

/-- Window w's block at point t, read off the array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

section Before
variable {c : Dev nD} (dat : Dat τ (Elt F) Unit ℕ (UR sig nD τ) ℕ cfg1 c)

/-- An input window's staging buffer holds its block at every point, fetched there or not: where it is not
    fetched the block index has not moved and the body left the block in place. -/
theorem before1_0_of (hA : dat.A 0 = V c (Pipeline.arrRef spec1 0)) (hafter : ∀ t, dat.after 0 t = iblk1 V c 0 t) (t : Fin cfg1.N) (d) :
    dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of (hA : dat.A 1 = V c (Pipeline.arrRef spec1 1)) (hafter : ∀ t, dat.after 1 t = iblk1 V c 1 t) (t : Fin cfg1.N) (d) :
    dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of (hA : dat.A 2 = V c (Pipeline.arrRef spec1 2)) (hafter : ∀ t, dat.after 2 t = iblk1 V c 2 t) (t : Fin cfg1.N) (d) :
    dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of (hA : dat.A 3 = V c (Pipeline.arrRef spec1 3)) (hafter : ∀ t, dat.after 3 t = iblk1 V c 3 t) (t : Fin cfg1.N) (d) :
    dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of (hA : dat.A 4 = V c (Pipeline.arrRef spec1 4)) (hafter : ∀ t, dat.after 4 t = iblk1 V c 4 t) (t : Fin cfg1.N) (d) :
    dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
end Before

/-! ## The body's accesses: each buffer whole -/

abbrev r1_0 : Rect S512x4096 := Rect.unit (s := S512x4096) ![0, 0] S512x4096.size inb_S512x4096_S512x4096_0_0
abbrev r1_1 : Rect S4096x256 := Rect.unit (s := S4096x256) ![0, 0] S4096x256.size inb_S4096x256_S4096x256_0_0
abbrev r1_2 : Rect S512x256 := Rect.unit (s := S512x256) ![0, 0] S512x256.size inb_S512x256_S512x256_0_0
abbrev r1_3 : Rect S256x256 := Rect.unit (s := S256x256) ![0, 0] S256x256.size inb_S256x256_S256x256_0_0

/-- What the body leaves in the output window's buffer, from the five input blocks: its one store. -/
def out1_5 (x0 : Vec F S512x4096 .f32) (x1 : Vec F S4096x256 .f32) (x2 : Vec F S512x256 .f32) (x3 x4 : Vec F S256x256 .f32) : Vec F S512x256 .f32 :=
  View.canon [⟨r1_2, k1_pay1 (View.ld x0 r1_0) (View.ld x1 r1_1) (View.ld x2 r1_2) (View.ld x3 r1_3) (View.ld x4 r1_3)⟩]

/-- The store is over the whole buffer. -/
theorem cover1_5 (p0 : Vec F S512x256 .f32) (y : S512x256.Idx) :
    ∃ pc ∈ ([⟨r1_2, p0⟩] : List (View.Piece (Elt F) S512x256 .f32)), y ∈ pc.1.set :=
  View.cover_of_tiled [⟨r1_2, p0⟩] S512x256.size (by rfl) y

set_option maxHeartbeats 4000000 in
/-- The body on whole staging buffers, the inputs' at contents xW and the output's at anything, runs to the
    continuation with the inputs' as they were and the output's at out1_5 of the inputs'. -/
theorem sound_kernel1 (c : Dev nD) (E : Set ℕ) (i : grid1.Coords)
    (arg1 : Memref sig .tc .vmem S512x4096 .f32) (harg1 : arg1.IsWhole) (arg2 : Memref sig .tc .vmem S4096x256 .f32) (harg2 : arg2.IsWhole)
    (arg3 : Memref sig .tc .vmem S512x256 .f32) (harg3 : arg3.IsWhole) (arg4 : Memref sig .tc .vmem S256x256 .f32) (harg4 : arg4.IsWhole)
    (arg5 : Memref sig .tc .vmem S256x256 .f32) (harg5 : arg5.IsWhole) (arg6 : Memref sig .tc .vmem S512x256 .f32) (harg6 : arg6.IsWhole)
    (x0 : Vec F S512x4096 .f32) (x1 : Vec F S4096x256 .f32) (x2 : Vec F S512x256 .f32) (x3 x4 : Vec F S256x256 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__layer1_kernel i arg1 harg1 arg2 harg2 arg3 harg3 arg4 harg4 arg5 harg5 arg6 harg6) K := by
  simp only [cc1__layer1_kernel_eq_skeleton]; unfold cc1__layer1_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data -/

/-- The arrays as the region finds them; after the body at point t each input's buffer at its block and the
    output's at out1_5 of the input blocks; the invariant the scoped rest and the generator register, untouched;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

set_option maxHeartbeats 2000000 in
/-- The body at any point: the inputs' buffers hold their blocks, so the triple applies; the invariant and the core's
    debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Run.lean ====
/-
  The whole program: host operations, the first pallas_call, host operations, the second pallas_call — run segment
  by segment. Between two segments a core holds every unscoped buffer at known contents: the launch memory, then
  what a stretch of host operations computes from it, then the same with a region's arrays at what its write-backs
  leave. No segment writes an argument array, so each ends as launched; the result array ends at what the second
  region's write-backs leave.
-/
import proofs.«120716_j6485400617280_2_alg».proof.Proof.R0
import proofs.«120716_j6485400617280_2_alg».proof.Proof.R1
import proofs.«120716_j6485400617280_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- At launch. -/
abbrev W0 : Dev nD → Valuation τ sig (Elt F) := fun c b => m (c, b)
/-- After the first stretch of host operations (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second stretch of host operations (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- After the second region. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-! ## What each segment leaves alone -/

theorem W1_keep (c : Dev nD) (r : Ref sig .tc) (h : r ∉ hostOps0_W) : W1 m c (Proc.devRef .tc r) = m ((c : Thread nD τ).loc r) :=
  StableHlo.after_of_writes_sub hostOps0 _ hostOps0_writes h
theorem W3_keep (c : Dev nD) (r : Ref sig .tc) (h : r ∉ hostOps1_W) : W3 m c (Proc.devRef .tc r) = W2 m c (Proc.devRef .tc r) :=
  StableHlo.after_of_writes_sub hostOps1 _ hostOps1_writes h

/-- An array the first region only reads is, after it, what it was before. -/
theorem W2_in (c : Dev nD) (w : Fin cfg0.W) (hw : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hw _).trans (A_eq0 (V1 m) c w))
/-- An array the second region only reads is, after it, what it was before. -/
theorem W4_in (c : Dev nD) (w : Fin cfg1.W) (hw : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hw _).trans (A_eq1 (V3 m) c w))

/-! ## The arguments end as launched -/

theorem W4_main_arg0 (c : Dev nD) : W4 m c (Proc.devRef .tc main_arg0) = m ((c : Thread nD τ).loc main_arg0) :=
  (W4_of_ne m c main_arg0 (by decide)).trans <| (W3_keep m c main_arg0 (by decide)).trans <|
    (W2_in m c 1 rfl).trans (W1_keep m c main_arg0 (by decide))
theorem W4_main_arg1 (c : Dev nD) : W4 m c (Proc.devRef .tc main_arg1) = m ((c : Thread nD τ).loc main_arg1) :=
  (W4_of_ne m c main_arg1 (by decide)).trans <| (W3_keep m c main_arg1 (by decide)).trans <|
    (W2_in m c 0 rfl).trans (W1_keep m c main_arg1 (by decide))
theorem W4_main_arg2 (c : Dev nD) : W4 m c (Proc.devRef .tc main_arg2) = m ((c : Thread nD τ).loc main_arg2) :=
  (W4_in m c 0 rfl).trans <| (W3_keep m c main_arg2 (by decide)).trans <|
    (W2_of_ne m c main_arg2 (by decide)).trans (W1_keep m c main_arg2 (by decide))
theorem W4_main_arg3 (c : Dev nD) : W4 m c (Proc.devRef .tc main_arg3) = m ((c : Thread nD τ).loc main_arg3) :=
  (W4_of_ne m c main_arg3 (by decide)).trans <| (W3_keep m c main_arg3 (by decide)).trans <|
    (W2_of_ne m c main_arg3 (by decide)).trans (W1_keep m c main_arg3 (by decide))
theorem W4_main_arg4 (c : Dev nD) : W4 m c (Proc.devRef .tc main_arg4) = m ((c : Thread nD τ).loc main_arg4) :=
  (W4_of_ne m c main_arg4 (by decide)).trans <| (W3_keep m c main_arg4 (by decide)).trans <|
    (W2_of_ne m c main_arg4 (by decide)).trans (W1_keep m c main_arg4 (by decide))
theorem W4_main_arg5 (c : Dev nD) : W4 m c (Proc.devRef .tc main_arg5) = m ((c : Thread nD τ).loc main_arg5) :=
  (W4_of_ne m c main_arg5 (by decide)).trans <| (W3_keep m c main_arg5 (by decide)).trans <|
    (W2_of_ne m c main_arg5 (by decide)).trans (W1_keep m c main_arg5 (by decide))
theorem W4_main_arg6 (c : Dev nD) : W4 m c (Proc.devRef .tc main_arg6) = m ((c : Thread nD τ).loc main_arg6) :=
  (W4_of_ne m c main_arg6 (by decide)).trans <| (W3_keep m c main_arg6 (by decide)).trans <|
    (W2_of_ne m c main_arg6 (by decide)).trans (W1_keep m c main_arg6 (by decide))

/-! ## The proof data family and the thread state -/

abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered with every unscoped buffer at W1, left with them at W2. Its arrays are taken out of
    the unscoped buffers and put back at the exit contents; the generator register and the scoped rest go into the
    region invariant and come back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m) c)
    unfold Pipeline.ΦA
    iintro ⟨Hp, -, Hr⟩
    isplitl [Hr]; · iexact Hr
    iexact Hp
  hout c := by
    rw [Pipeline.ownSems0_none]
    refine BIBase.Entails.trans (hout0 (V1 m) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered with every unscoped buffer at W3, left with them at W4. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and its run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]

theorem main_run (c : Dev nD) : main (F := F) c = Pipeline.Seg.run (segs m) := (main_chain c).trans (by chain_rfl)

set_option backward.isDefEq.respectTransparency.types false in
/-- From any memory with zero counters every weakly fair execution of the program terminates, nothing faulting, and
    in the final memory every unscoped buffer of every core holds the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

/-- The same run with the result array named: it ends at what the second region's write-backs leave. -/
theorem run_value : θ_run defs (onTc (τ := τ) (main (F := F))) ⟨m, fun _ => 0, ρ⟩ (fun r => ∀ c : Dev nD,
      r.2.mem ((c.tc : Thread nD τ).loc main_v23) = (dat1 (V3 m) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v23 (by decide))).trans (W4_arr m c 5),
     (h c _ (mem_uc main_arg0 (by decide))).trans (W4_main_arg0 m c),
     (h c _ (mem_uc main_arg1 (by decide))).trans (W4_main_arg1 m c),
     (h c _ (mem_uc main_arg2 (by decide))).trans (W4_main_arg2 m c),
     (h c _ (mem_uc main_arg3 (by decide))).trans (W4_main_arg3 m c),
     (h c _ (mem_uc main_arg4 (by decide))).trans (W4_main_arg4 m c),
     (h c _ (mem_uc main_arg5 (by decide))).trans (W4_main_arg5 m c),
     (h c _ (mem_uc main_arg6 (by decide))).trans (W4_main_arg6 m c)⟩) (run_main m ρ)

end Cert.KernelIdeal.Hand

end
-- ==== Proof.HostVals.lean ====
/-
  What the host operations before each pallas_call leave in the arrays its windows look at: the gathered rows
  (the row numbers first wrapped when negative), and the two halves of a weight matrix, each sliced out and
  transposed. Arrays no host operation writes are as launched.
-/
import proofs.«120716_j6485400617280_2_alg».proof.Proof.Run
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.StableHlo

variable (m : (ℓ : Loc nD τ sig) → Buf (Elt F) ℓ)

/-- The rows of the feature table the first layer's nodes own: table[idx], the row numbers wrapped when negative. -/
def ownRows1 (feats : FVec F S32768x128 .f32) (idx : (⟨S4096, .i32⟩ : BufTy).Contents (Elt F)) : FVec F S4096x128 .f32 :=
  Host.gather gather_S32768x128_S4096x1_S4096x128_1_0_n_n_0_1_1128 feats (broadcastInDim S4096x1 ![0] bcast_S4096_S4096x1_0 (select (cmpi .slt idx (broadcastInDim S4096 ![] bcast_S_S4096 (constantI S_ 32 0#32))) (addi idx (broadcastInDim S4096 ![] bcast_S_S4096 (constantI S_ 32 32768#32))) idx))

/-- The rows of the first layer's result the second layer's nodes own. -/
def ownRows0 (H : FVec F S4096x256 .f32) (idx : (⟨S1024, .i32⟩ : BufTy).Contents (Elt F)) : FVec F S1024x256 .f32 :=
  Host.gather gather_S4096x256_S1024x1_S1024x256_1_0_n_n_0_1_1256 H (broadcastInDim S1024x1 ![0] bcast_S1024_S1024x1_0 (select (cmpi .slt idx (broadcastInDim S1024 ![] bcast_S_S1024 (constantI S_ 32 0#32))) (addi idx (broadcastInDim S1024 ![] bcast_S_S1024 (constantI S_ 32 4096#32))) idx))

/-- A half of the first weight matrix, sliced out at column o and transposed. -/
def half1 (o : ℕ) (h : S256x256.Slices ![0, o] S256x128) (W : FVec F S256x256 .f32) : FVec F S128x256 .f32 :=
  transpose S128x256 [1, 0] (extractStridedSlice S256x128 ![0, o] W h) transposes_S256x128_S128x256_1_0

/-- A half of the second weight matrix, sliced out at column o and transposed. -/
def half2 (o : ℕ) (h : S256x512.Slices ![0, o] S256x256) (W : FVec F S256x512 .f32) : FVec F S256x256 .f32 :=
  transpose S256x256 [1, 0] (extractStridedSlice S256x256 ![0, o] W h) transposes_S256x256_S256x256_1_0

/-! ## At the first region's entry -/

theorem V1_v6 (c : Dev nD) : V1 m c main_v6 = ownRows1 (m ((c : Thread nD τ).loc main_arg0)) (m ((c : Thread nD τ).loc main_arg5)) := by
  show StableHlo.after hostOps0 (fun b => m (c, b)) (Proc.devRef .tc main_v6) = _
  after_results; rfl
theorem V1_v8 (c : Dev nD) : V1 m c main_v8 = half1 0 slices_S256x256_S256x128_0_0 (m ((c : Thread nD τ).loc main_arg3)) := by
  show StableHlo.after hostOps0 (fun b => m (c, b)) (Proc.devRef .tc main_v8) = _
  after_results; rfl
theorem V1_v10 (c : Dev nD) : V1 m c main_v10 = half1 128 slices_S256x256_S256x128_0_128 (m ((c : Thread nD τ).loc main_arg3)) := by
  show StableHlo.after hostOps0 (fun b => m (c, b)) (Proc.devRef .tc main_v10) = _
  after_results; rfl
theorem V1_arg0 (c : Dev nD) : V1 m c main_arg0 = (m ((c : Thread nD τ).loc main_arg0)) := W1_keep m c main_arg0 (by decide)
theorem V1_arg1 (c : Dev nD) : V1 m c main_arg1 = (m ((c : Thread nD τ).loc main_arg1)) := W1_keep m c main_arg1 (by decide)

/-! ## At the second region's entry -/

theorem W2_arg (c : Dev nD) (r : Ref sig .tc) (h2 : ∀ w, Pipeline.arrRef spec0 w ≠ r) (h1 : r ∉ hostOps0_W) :
    W2 m c (Proc.devRef .tc r) = m ((c : Thread nD τ).loc r) :=
  (W2_of_ne m c r h2).trans (W1_keep m c r h1)

theorem V3_v18 (c : Dev nD) : V3 m c main_v18 = ownRows0 ((dat0 (V1 m) c).arrAt 5 cfg0.N) (m ((c : Thread nD τ).loc main_arg6)) := by
  have e : V3 m c main_v18 = ownRows0 (W2 m c (Proc.devRef .tc main_v11)) (W2 m c (Proc.devRef .tc main_arg6)) := by
    show StableHlo.after hostOps1 (W2 m c) (Proc.devRef .tc main_v18) = _
    after_results; rfl
  rw [e, W2_arg m c main_arg6 (by decide) (by decide)]
  exact congrArg (fun H => ownRows0 H _) (W2_arr m c 5)
theorem V3_v20 (c : Dev nD) : V3 m c main_v20 = half2 0 slices_S256x512_S256x256_0_0 (m ((c : Thread nD τ).loc main_arg4)) := by
  have e : V3 m c main_v20 = half2 0 slices_S256x512_S256x256_0_0 (W2 m c (Proc.devRef .tc main_arg4)) := by
    show StableHlo.after hostOps1 (W2 m c) (Proc.devRef .tc main_v20) = _
    after_results; rfl
  rw [e, W2_arg m c main_arg4 (by decide) (by decide)]
theorem V3_v22 (c : Dev nD) : V3 m c main_v22 = half2 256 slices_S256x512_S256x256_0_256 (m ((c : Thread nD τ).loc main_arg4)) := by
  have e : V3 m c main_v22 = half2 256 slices_S256x512_S256x256_0_256 (W2 m c (Proc.devRef .tc main_arg4)) := by
    show StableHlo.after hostOps1 (W2 m c) (Proc.devRef .tc main_v22) = _
    after_results; rfl
  rw [e, W2_arg m c main_arg4 (by decide) (by decide)]
theorem V3_v11 (c : Dev nD) : V3 m c main_v11 = (dat0 (V1 m) c).arrAt 5 cfg0.N :=
  (W3_keep m c main_v11 (by decide)).trans (W2_arr m c 5)
theorem V3_arg2 (c : Dev nD) : V3 m c main_arg2 = (m ((c : Thread nD τ).loc main_arg2)) :=
  (W3_keep m c main_arg2 (by decide)).trans (W2_arg m c main_arg2 (by decide) (by decide))

end Cert.KernelIdeal.Hand

end
-- ==== Proof.Blocks.lean ====
/-
  Reading a window's block: entry y of window w's block at grid point t is the entry of the window's array at the
  block's index times the block's extent plus y, axis by axis. The block indices are read off the printed index
  maps once, over the whole grid: in the first call point t is row block t / 16 and column block t % 16; in the
  second call point t is row block t.
-/
import proofs.«120716_j6485400617280_2_alg».proof.Proof.R0Base
import proofs.«120716_j6485400617280_2_alg».proof.Proof.R1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first call's block indices. -/
theorem idx_facts0 : ∀ t : Fin cfg0.N,
    win0_0.index t (0 : Fin 2) = t.val / 16 ∧ win0_0.index t (1 : Fin 2) = t.val % 16
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val / 16 ∧ win0_5.index t (1 : Fin 2) = 0 :=
  (by decide +kernel : ∀ t : Fin grid0.N, _)

/-- The second call's block indices. -/
theorem idx_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-! ## The first call's input blocks -/

theorem iblk0_0_at (c : Dev nD) (t : Fin cfg0.N) (y : S2048x2048.Idx) (i : S4096x32768.Idx)
    (h0 : (i 0).val = 2048 * (t.val / 16) + (y 0).val) (h1 : (i 1).val = 2048 * (t.val % 16) + (y 1).val) : iblk0 V c 0 t y = V c main_arg1 i := by
  obtain ⟨e0, e1, -, -, -, -, -, -, -, -, -, -⟩ := idx_facts0 t
  show V c main_arg1 (((cfg0.win 0).blk t).view.emb y) = V c main_arg1 i
  refine congrArg _ (funext fun a => Fin.ext ?_)
  match a with
  | ⟨0, _⟩ => show win0_0.index t (0 : Fin 2) * 2048 + 1 * (y 0).val = (i 0).val; rw [e0, h0]; omega
  | ⟨1, _⟩ => show win0_0.index t (1 : Fin 2) * 2048 + 1 * (y 1).val = (i 1).val; rw [e1, h1]; omega
theorem iblk0_1_at (c : Dev nD) (t : Fin cfg0.N) (y : S2048x128.Idx) (i : S32768x128.Idx)
    (h0 : (i 0).val = 2048 * (t.val % 16) + (y 0).val) (h1 : (i 1).val = (y 1).val) : iblk0 V c 1 t y = V c main_arg0 i := by
  obtain ⟨-, -, e0, e1, -, -, -, -, -, -, -, -⟩ := idx_facts0 t
  show V c main_arg0 (((cfg0.win 1).blk t).view.emb y) = V c main_arg0 i
  refine congrArg _ (funext fun a => Fin.ext ?_)
  match a with
  | ⟨0, _⟩ => show win0_1.index t (0 : Fin 2) * 2048 + 1 * (y 0).val = (i 0).val; rw [e0, h0]; omega
  | ⟨1, _⟩ => show win0_1.index t (1 : Fin 2) * 128 + 1 * (y 1).val = (i 1).val; rw [e1, h1]; omega
theorem iblk0_2_at (c : Dev nD) (t : Fin cfg0.N) (y : S2048x128.Idx) (i : S4096x128.Idx)
    (h0 : (i 0).val = 2048 * (t.val / 16) + (y 0).val) (h1 : (i 1).val = (y 1).val) : iblk0 V c 2 t y = V c main_v6 i := by
  obtain ⟨-, -, -, -, e0, e1, -, -, -, -, -, -⟩ := idx_facts0 t
  show V c main_v6 (((cfg0.win 2).blk t).view.emb y) = V c main_v6 i
  refine congrArg _ (funext fun a => Fin.ext ?_)
  match a with
  | ⟨0, _⟩ => show win0_2.index t (0 : Fin 2) * 2048 + 1 * (y 0).val = (i 0).val; rw [e0, h0]; omega
  | ⟨1, _⟩ => show win0_2.index t (1 : Fin 2) * 128 + 1 * (y 1).val = (i 1).val; rw [e1, h1]; omega
theorem iblk0_3_at (c : Dev nD) (t : Fin cfg0.N) (y : S128x256.Idx) (i : S128x256.Idx)
    (h0 : (i 0).val = (y 0).val) (h1 : (i 1).val = (y 1).val) : iblk0 V c 3 t y = V c main_v8 i := by
  obtain ⟨-, -, -, -, -, -, e0, e1, -, -, -, -⟩ := idx_facts0 t
  show V c main_v8 (((cfg0.win 3).blk t).view.emb y) = V c main_v8 i
  refine congrArg _ (funext fun a => Fin.ext ?_)
  match a with
  | ⟨0, _⟩ => show win0_3.index t (0 : Fin 2) * 128 + 1 * (y 0).val = (i 0).val; rw [e0, h0]; omega
  | ⟨1, _⟩ => show win0_3.index t (1 : Fin 2) * 256 + 1 * (y 1).val = (i 1).val; rw [e1, h1]; omega
theorem iblk0_4_at (c : Dev nD) (t : Fin cfg0.N) (y : S128x256.Idx) (i : S128x256.Idx)
    (h0 : (i 0).val = (y 0).val) (h1 : (i 1).val = (y 1).val) : iblk0 V c 4 t y = V c main_v10 i := by
  obtain ⟨-, -, -, -, -, -, -, -, e0, e1, -, -⟩ := idx_facts0 t
  show V c main_v10 (((cfg0.win 4).blk t).view.emb y) = V c main_v10 i
  refine congrArg _ (funext fun a => Fin.ext ?_)
  match a with
  | ⟨0, _⟩ => show win0_4.index t (0 : Fin 2) * 128 + 1 * (y 0).val = (i 0).val; rw [e0, h0]; omega
  | ⟨1, _⟩ => show win0_4.index t (1 : Fin 2) * 256 + 1 * (y 1).val = (i 1).val; rw [e1, h1]; omega

/-! ## The second call's input blocks -/

theorem iblk1_0_at (c : Dev nD) (t : Fin cfg1.N) (y : S512x4096.Idx) (i : S1024x4096.Idx)
    (h0 : (i 0).val = 512 * t.val + (y 0).val) (h1 : (i 1).val = (y 1).val) : iblk1 V c 0 t y = V c main_arg2 i := by
  obtain ⟨e0, e1, -, -, -, -, -, -, -, -, -, -⟩ := idx_facts1 t
  show V c main_arg2 (((cfg1.win 0).blk t).view.emb y) = V c main_arg2 i
  refine congrArg _ (funext fun a => Fin.ext ?_)
  match a with
  | ⟨0, _⟩ => show win1_0.index t (0 : Fin 2) * 512 + 1 * (y 0).val = (i 0).val; rw [e0, h0]; omega
  | ⟨1, _⟩ => show win1_0.index t (1 : Fin 2) * 4096 + 1 * (y 1).val = (i 1).val; rw [e1, h1]; omega
theorem iblk1_1_at (c : Dev nD) (t : Fin cfg1.N) (y : S4096x256.Idx) (i : S4096x256.Idx)
    (h0 : (i 0).val = (y 0).val) (h1 : (i 1).val = (y 1).val) : iblk1 V c 1 t y = V c main_v11 i := by
  obtain ⟨-, -, e0, e1, -, -, -, -, -, -, -, -⟩ := idx_facts1 t
  show V c main_v11 (((cfg1.win 1).blk t).view.emb y) = V c main_v11 i
  refine congrArg _ (funext fun a => Fin.ext ?_)
  match a with
  | ⟨0, _⟩ => show win1_1.index t (0 : Fin 2) * 4096 + 1 * (y 0).val = (i 0).val; rw [e0, h0]; omega
  | ⟨1, _⟩ => show win1_1.index t (1 : Fin 2) * 256 + 1 * (y 1).val = (i 1).val; rw [e1, h1]; omega
theorem iblk1_2_at (c : Dev nD) (t : Fin cfg1.N) (y : S512x256.Idx) (i : S1024x256.Idx)
    (h0 : (i 0).val = 512 * t.val + (y 0).val) (h1 : (i 1).val = (y 1).val) : iblk1 V c 2 t y = V c main_v18 i := by
  obtain ⟨-, -, -, -, e0, e1, -, -, -, -, -, -⟩ := idx_facts1 t
  show V c main_v18 (((cfg1.win 2).blk t).view.emb y) = V c main_v18 i
  refine congrArg _ (funext fun a => Fin.ext ?_)
  match a with
  | ⟨0, _⟩ => show win1_2.index t (0 : Fin 2) * 512 + 1 * (y 0).val = (i 0).val; rw [e0, h0]; omega
  | ⟨1, _⟩ => show win1_2.index t (1 : Fin 2) * 256 + 1 * (y 1).val = (i 1).val; rw [e1, h1]; omega
theorem iblk1_3_at (c : Dev nD) (t : Fin cfg1.N) (y : S256x256.Idx) (i : S256x256.Idx)
    (h0 : (i 0).val = (y 0).val) (h1 : (i 1).val = (y 1).val) : iblk1 V c 3 t y = V c main_v20 i := by
  obtain ⟨-, -, -, -, -, -, e0, e1, -, -, -, -⟩ := idx_facts1 t
  show V c main_v20 (((cfg1.win 3).blk t).view.emb y) = V c main_v20 i
  refine congrArg _ (funext fun a => Fin.ext ?_)
  match a with
  | ⟨0, _⟩ => show win1_3.index t (0 : Fin 2) * 256 + 1 * (y 0).val = (i 0).val; rw [e0, h0]; omega
  | ⟨1, _⟩ => show win1_3.index t (1 : Fin 2) * 256 + 1 * (y 1).val = (i 1).val; rw [e1, h1]; omega
theorem iblk1_4_at (c : Dev nD) (t : Fin cfg1.N) (y : S256x256.Idx) (i : S256x256.Idx)
    (h0 : (i 0).val = (y 0).val) (h1 : (i 1).val = (y 1).val) : iblk1 V c 4 t y = V c main_v22 i := by
  obtain ⟨-, -, -, -, -, -, -, -, e0, e1, -, -⟩ := idx_facts1 t
  show V c main_v22 (((cfg1.win 4).blk t).view.emb y) = V c main_v22 i
  refine congrArg _ (funext fun a => Fin.ext ?_)
  match a with
  | ⟨0, _⟩ => show win1_4.index t (0 : Fin 2) * 256 + 1 * (y 0).val = (i 0).val; rw [e0, h0]; omega
  | ⟨1, _⟩ => show win1_4.index t (1 : Fin 2) * 256 + 1 * (y 1).val = (i 1).val; rw [e1, h1]; omega

end Cert.KernelIdeal.Hand

end
-- ==== Proof.Pieces.lean ====
/-
  What the found pieces are: after a point of kind A the scratch holds the product of the point's blocks added to
  the cleared buffer; after a point of kind B or C the product added to what it held; after a point of kind C the
  output block holds the layer computed from the nodes' own rows, the two weight halves and that updated scratch.
-/
import proofs.«120716_j6485400617280_2_alg».proof.Proof.R0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout0_A_eq (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : cond0_0 i) (hc1 : ¬cond0_1 i) (x0 : Vec F S2048x2048 .f32) (x1 : Vec F S2048x128 .f32) :
    sout0_A c i arg2 harg2 arg3 harg3 arg4 harg4 arg5 harg5 arg6 harg6 arg7 harg7 arg8 harg8 hc0 hc1 x0 x1 = k0_pay2 x0 x1 (k0_pay1 (F := F)) := by
  unfold sout0_A
  rw [View.read_writes_eq_canon _ _ _ (scover0_A c i arg2 harg2 arg3 harg3 arg4 harg4 arg5 harg5 arg6 harg6 arg7 harg7 arg8 harg8 hc0 hc1 x0 x1)]
  unfold kernelRun0_A; dsimp only; sl_unfold_words
  rw [View.canon_cons_unit_zero hz2]
  simp only [View.readAt_eq_ld, harg2.read_unread, harg3.read_unread, View.ld_unit_zero (S := S2048x2048) hz2,
    View.ld_unit_zero (S := S2048x128) hz2]
  refine congrArg (k0_pay2 x0 x1) ?_
  exact View.readCov_unit_zero (S := S2048x128) arg8.view hz2 _ _

theorem sout0_B_eq (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : ¬cond0_1 i) (x0 : Vec F S2048x2048 .f32) (x1 : Vec F S2048x128 .f32) (xs : Vec F S2048x128 .f32) :
    sout0_B c i arg2 harg2 arg3 harg3 arg4 harg4 arg5 harg5 arg6 harg6 arg7 harg7 arg8 harg8 hc0 hc1 x0 x1 xs = k0_pay2 x0 x1 xs := by
  unfold sout0_B
  rw [View.read_writes_eq_canon _ _ _ (scover0_B c i arg2 harg2 arg3 harg3 arg4 harg4 arg5 harg5 arg6 harg6 arg7 harg7 arg8 harg8 hc0 hc1 x0 x1 xs)]
  unfold kernelRun0_B; dsimp only; sl_unfold_words
  rw [View.canon_unit_zero hz2]
  simp only [View.readAt_eq_ld, harg2.read_unread, harg3.read_unread, harg8.read_unread, View.ld_unit_zero (S := S2048x2048) hz2,
    View.ld_unit_zero (S := S2048x128) hz2]

theorem sout0_C_eq (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) :
    sout0_C c i arg2 harg2 arg3 harg3 arg4 harg4 arg5 harg5 arg6 harg6 arg7 harg7 arg8 harg8 hc0 hc1 x0 x1 x2 x3 x4 xs = k0_pay2 x0 x1 xs := by
  unfold sout0_C
  rw [View.read_writes_eq_canon _ _ _ (scover0_C c i arg2 harg2 arg3 harg3 arg4 harg4 arg5 harg5 arg6 harg6 arg7 harg7 arg8 harg8 hc0 hc1 x0 x1 x2 x3 x4 xs)]
  unfold kernelRun0_C; dsimp only; sl_unfold_words
  rw [View.canon_unit_zero hz2]
  simp only [View.readAt_eq_ld, harg2.read_unread, harg3.read_unread, harg8.read_unread, View.ld_unit_zero (S := S2048x2048) hz2,
    View.ld_unit_zero (S := S2048x128) hz2]

theorem out0_C_5_eq (c : Dev nD) (i : grid0.Coords) (arg2 : Memref sig .tc .vmem S2048x2048 .f32) (harg2 : arg2.IsWhole) (arg3 : Memref sig .tc .vmem S2048x128 .f32) (harg3 : arg3.IsWhole) (arg4 : Memref sig .tc .vmem S2048x128 .f32) (harg4 : arg4.IsWhole) (arg5 : Memref sig .tc .vmem S128x256 .f32) (harg5 : arg5.IsWhole) (arg6 : Memref sig .tc .vmem S128x256 .f32) (harg6 : arg6.IsWhole) (arg7 : Memref sig .tc .vmem S2048x256 .f32) (harg7 : arg7.IsWhole) (arg8 : Memref sig .tc .vmem S2048x128 .f32) (harg8 : arg8.IsWhole)
    (hc0 : ¬cond0_0 i) (hc1 : cond0_1 i) (x0 : Vec F S2048x2048 .f32) (x1 x2 : Vec F S2048x128 .f32) (x3 x4 : Vec F S128x256 .f32) (xs : Vec F S2048x128 .f32) :
    out0_C_5 c i arg2 harg2 arg3 harg3 arg4 harg4 arg5 harg5 arg6 harg6 arg7 harg7 arg8 harg8 hc0 hc1 x0 x1 x2 x3 x4 xs = k0_pay3 x2 x3 x4 (k0_pay2 x0 x1 xs) := by
  unfold out0_C_5
  rw [View.read_writes_eq_canon _ _ _ (cover0_C_5 c i arg2 harg2 arg3 harg3 arg4 harg4 arg5 harg5 arg6 harg6 arg7 harg7 arg8 harg8 hc0 hc1 x0 x1 x2 x3 x4 xs)]
  unfold kernelRun0_C; dsimp only; sl_unfold_words
  rw [View.canon_unit_zero hz2]
  simp only [View.readAt_eq_ld, harg2.read_unread, harg3.read_unread, harg4.read_unread, harg5.read_unread, harg6.read_unread,
    harg8.read_unread, View.ld_unit_zero (S := S2048x2048) hz2, View.ld_unit_zero (S := S2048x128) hz2,
    View.ld_unit_zero (S := S128x256) hz2]
  refine congrArg (k0_pay3 x2 x3 x4) ?_
  exact View.readCov_unit_zero (S := S2048x128) arg8.view hz2 _ _

end Cert.KernelIdeal.Hand

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.PayRead.lean ====
/-
  The kernel's arithmetic read at an entry, on the extended reals.

  Each value the kernel stores is a composition of matrix products into a zero accumulator, entrywise sums and an
  entrywise maximum with zero. Read at an entry (p, q):

  * the cleared aggregate is 0;
  * one accumulation step adds to the stored aggregate the product of the current column block of the neighbour
    matrix with the matching rows of the node table, Σ_l A(p,l) · B(l,q);
  * the first layer's result is max( Σ_k X(p,k) · Wa(k,q) + Σ_k G(p,k) · Wb(k,q), 0 ) for the stored aggregate G;
  * the second layer's result is the same expression with the aggregate computed in place,
    G(p,k) = Σ_l A(p,l) · B(l,k).

  A cast of an array to its own shape changes nothing, and the zero word is the extended real 0.
-/
import proofs.«120716_j6485400617280_2_alg».proof.Proof.Gen.KernelIdeal.Skeleton
import proofs.«120716_j6485400617280_2_alg».proof.Proof.LibMatmulPlain
import Idealize.ShloMosaic.Lib.ValueIdx
import Idealize.ShloMosaic.Lib.Pipeline.Value
import Idealize.ShloMosaic.PureOps.Ideal.Laws

noncomputable section

namespace Cert.KernelIdeal.PayRead

open Idealize.ShloMosaic Idealize.ShloMosaic.ValueIdx Cert.KernelIdeal Cert.KernelIdeal.Gen

/-- The cleared aggregate: 0 at every entry. -/
theorem pay1_apply (j : S2048x128.Idx) : k0_pay1 (F := Ideal) j = 0 := by
  unfold k0_pay1
  rw [shapeCast_self]
  exact Ideal.ofBits_zero_f32

/-- One accumulation step at entry (p, q): the stored value plus Σ_l A(p,l) · B(l,q). -/
theorem pay2_apply (v3 : Vec Ideal S2048x2048 .f32) (v4 v5 : Vec Ideal S2048x128 .f32) (p : Fin 2048) (q : Fin 128) :
    k0_pay2 v3 v4 v5 (ix2 p q) = v5 (ix2 p q) + ∑ l : Fin 2048, v3 (ix2 p l) * v4 (ix2 l q) := by
  unfold k0_pay2
  rw [shapeCast_self]
  refine (addf_apply _ _ _).trans ?_
  refine congrArg (v5 (ix2 p q) + ·) ?_
  exact Cert.LibMatmulPlain.matmul_zero_apply dot_S2048x2048_S2048x128_S2048x128_1_0_0_1_n_n rfl rfl rfl rfl rfl rfl none v3 v4 p q

/-- The first layer's result at entry (p, q): max( Σ_k X(p,k) · Wa(k,q) + Σ_k G(p,k) · Wb(k,q), 0 ). -/
theorem pay3_apply (v14 : Vec Ideal S2048x128 .f32) (v16 v18 : Vec Ideal S128x256 .f32) (v21 : Vec Ideal S2048x128 .f32) (p : Fin 2048) (q : Fin 256) :
    k0_pay3 v14 v16 v18 v21 (ix2 p q) = max (∑ k : Fin 128, v14 (ix2 p k) * v16 (ix2 k q) + ∑ k : Fin 128, v21 (ix2 p k) * v18 (ix2 k q)) 0 := by
  unfold k0_pay3
  simp only [shapeCast_self]
  refine (maximumf_apply _ _ _).trans ?_
  refine congrArg₂ max ?_ Ideal.ofBits_zero_f32
  refine (addf_apply _ _ _).trans ?_
  refine congrArg₂ (· + ·) ?_ ?_
  · exact Cert.LibMatmulPlain.matmul_zero_apply dot_S2048x128_S128x256_S2048x256_1_0_0_1_n_n rfl rfl rfl rfl rfl rfl none v14 v16 p q
  · exact Cert.LibMatmulPlain.matmul_zero_apply dot_S2048x128_S128x256_S2048x256_1_0_0_1_n_n rfl rfl rfl rfl rfl rfl none v21 v18 p q

/-- The second layer's result at entry (p, q), the aggregate Σ_l A(p,l) · B(l,k) computed in place. -/
theorem k1_pay1_apply (v0 : Vec Ideal S512x4096 .f32) (v1 : Vec Ideal S4096x256 .f32) (v4 : Vec Ideal S512x256 .f32) (v6 v8 : Vec Ideal S256x256 .f32) (p : Fin 512) (q : Fin 256) :
    k1_pay1 v0 v1 v4 v6 v8 (ix2 p q) = max (∑ k : Fin 256, v4 (ix2 p k) * v6 (ix2 k q) + ∑ k : Fin 256, (∑ l : Fin 4096, v0 (ix2 p l) * v1 (ix2 l k)) * v8 (ix2 k q)) 0 := by
  unfold k1_pay1
  simp only [shapeCast_self]
  refine (maximumf_apply _ _ _).trans ?_
  refine congrArg₂ max ?_ Ideal.ofBits_zero_f32
  refine (addf_apply _ _ _).trans ?_
  refine congrArg₂ (· + ·) ?_ ?_
  · exact Cert.LibMatmulPlain.matmul_zero_apply dot_S512x256_S256x256_S512x256_1_0_0_1_n_n rfl rfl rfl rfl rfl rfl none v4 v6 p q
  · refine (Cert.LibMatmulPlain.matmul_zero_apply dot_S512x256_S256x256_S512x256_1_0_0_1_n_n rfl rfl rfl rfl rfl rfl none _ v8 p q).trans ?_
    refine Finset.sum_congr rfl fun k _ => congrArg (· * v8 (ix2 k q)) ?_
    exact Cert.LibMatmulPlain.matmul_zero_apply dot_S512x4096_S4096x256_S512x256_1_0_0_1_n_n rfl rfl rfl rfl rfl rfl none v0 v1 p k

end Cert.KernelIdeal.PayRead

end
-- ==== Proof.Spec.lean ====
/-
  The function both programs compute, on the extended reals.

  A layer takes a node table H (b rows of d features), a row-stochastic neighbour matrix M (a rows over the b
  nodes), the a nodes' own rows X, and a weight matrix W of n rows and 2d columns given as its two halves
  Wl (columns 0..d-1) and Wr (columns d..2d-1). Entry (r, j) of the result is

      max ( Σ_k X(r,k) · Wl(j,k)  +  Σ_k ( Σ_l M(r,l) · H(l,k) ) · Wr(j,k) ,  0 ).

  Laying X and the aggregate M·H side by side and contracting the 2d columns against a whole row of W is the same
  sum cut at column d; accumulating M·H over consecutive column blocks of M is the same inner sum cut into blocks.
  Both are re-bracketings of finite sums in a commutative monoid, so they hold on the extended reals with no
  finiteness assumption.
-/
import Idealize.ShloMosaic.PureOps.Ideal
import Mathlib.Algebra.BigOperators.Fin

noncomputable section

namespace Cert.Spec

/-- The neighbourhood aggregate: entry (r, k) of M · H. -/
def agg {a b d : ℕ} (M : Fin a → Fin b → EReal) (H : Fin b → Fin d → EReal) (r : Fin a) (k : Fin d) : EReal :=
  ∑ l : Fin b, M r l * H l k

/-- One layer at entry (r, j). -/
def layer {a b d n : ℕ} (M : Fin a → Fin b → EReal) (H : Fin b → Fin d → EReal) (X : Fin a → Fin d → EReal)
    (Wl Wr : Fin n → Fin d → EReal) (r : Fin a) (j : Fin n) : EReal :=
  max (∑ k : Fin d, X r k * Wl j k + ∑ k : Fin d, agg M H r k * Wr j k) 0

end Cert.Spec

end
-- ==== Proof.SpecArr.lean ====
/-
  The layer of Spec.lean as a function of whole arrays: the neighbour matrix M [a,b], the node table H [b,d], the
  nodes' own rows X [a,d] and the weight matrix W [n,d2] with d2 = d + d, read entry by entry. The left half of a
  row of W is its columns 0..d-1, the right half its columns d..d2-1.
-/
import proofs.«120716_j6485400617280_2_alg».proof.Proof.Spec
import Idealize.ShloMosaic.Lib.ValueIdx

noncomputable section

namespace Cert.Spec

open Idealize.ShloMosaic Idealize.ShloMosaic.ValueIdx

/-- The left half of W as a function of (row, column). -/
def leftHalf {n d d2 : ℕ} (hd : d + d = d2) (W : FVec Ideal ⟨2, ![n, d2]⟩ .f32) (j : Fin n) (k : Fin d) : EReal :=
  W (ix2 j ⟨k.val, by omega⟩)

/-- The right half of W as a function of (row, column). -/
def rightHalf {n d d2 : ℕ} (hd : d + d = d2) (W : FVec Ideal ⟨2, ![n, d2]⟩ .f32) (j : Fin n) (k : Fin d) : EReal :=
  W (ix2 j ⟨d + k.val, by omega⟩)

/-- The layer on whole arrays. -/
def layerArr {a b d n d2 : ℕ} (hd : d + d = d2) (M : FVec Ideal ⟨2, ![a, b]⟩ .f32) (H : FVec Ideal ⟨2, ![b, d]⟩ .f32)
    (X : FVec Ideal ⟨2, ![a, d]⟩ .f32) (W : FVec Ideal ⟨2, ![n, d2]⟩ .f32) : FVec Ideal ⟨2, ![a, n]⟩ .f32 :=
  fun i => layer (fun r l => M (ix2 r l)) (fun l k => H (ix2 l k)) (fun r k => X (ix2 r k))
    (leftHalf hd W) (rightHalf hd W) (i 0) (i 1)

theorem layerArr_apply {a b d n d2 : ℕ} (hd : d + d = d2) (M : FVec Ideal ⟨2, ![a, b]⟩ .f32) (H : FVec Ideal ⟨2, ![b, d]⟩ .f32)
    (X : FVec Ideal ⟨2, ![a, d]⟩ .f32) (W : FVec Ideal ⟨2, ![n, d2]⟩ .f32) (r : Fin a) (j : Fin n) :
    layerArr hd M H X W (ix2 r j)
      = max (∑ k : Fin d, X (ix2 r k) * W (ix2 j ⟨k.val, by omega⟩)
          + ∑ k : Fin d, (∑ l : Fin b, M (ix2 r l) * H (ix2 l k)) * W (ix2 j ⟨d + k.val, by omega⟩)) 0 := rfl

end Cert.Spec

end
-- ==== Proof.LibBlockSum.lean ====
/-
  A sum over a * b consecutive positions taken block by block.

  The positions 0 .. a*b - 1 fall into a blocks of b consecutive ones: position j lies in block j / b at place j % b,
  and block s holds the positions b*s, b*s + 1, .., b*s + b - 1. In a commutative monoid the sum over all positions is
  therefore the sum over the blocks of each block's own sum. Nothing about the summands is used: the law is the
  regrouping of a finite sum, so it holds on the extended reals with their infinities as well.
-/
import Mathlib.Algebra.BigOperators.Fin
import Mathlib.Logic.Equiv.Fin.Basic
import Mathlib.Data.Fintype.BigOperators

open scoped BigOperators

namespace Cert.LibBlockSum

/-- Place jj of block s is a position below a * b. -/
theorem pos_lt {a b : ℕ} (s : Fin a) (jj : Fin b) : b * s.val + jj.val < a * b := by
  have h1 : s.val + 1 ≤ a := s.isLt
  have h2 : jj.val < b := jj.isLt
  calc b * s.val + jj.val < b * s.val + b := by omega
    _ = b * (s.val + 1) := by rw [Nat.mul_add, Nat.mul_one]
    _ ≤ b * a := Nat.mul_le_mul_left b h1
    _ = a * b := Nat.mul_comm b a

/-- The sum over a * b positions is the sum over the a blocks of the sum over each block's b places. -/
theorem sum_blocks {β : Type*} [AddCommMonoid β] (a b : ℕ) (g : Fin (a * b) → β) :
    ∑ j : Fin (a * b), g j = ∑ s : Fin a, ∑ jj : Fin b, g ⟨b * s.val + jj.val, pos_lt s jj⟩ := by
  rw [← Equiv.sum_comp finProdFinEquiv g, Fintype.sum_prod_type]
  refine Finset.sum_congr rfl fun s _ => Finset.sum_congr rfl fun jj _ => congrArg g (Fin.ext ?_)
  show jj.val + b * s.val = b * s.val + jj.val
  exact Nat.add_comm _ _

/-- The same with the blocks counted by naturals below a, as a fold over a run of points produces them: the summand
    of a block number that is out of range is never used. -/
theorem sum_blocks_range {β : Type*} [AddCommMonoid β] (a b : ℕ) (g : Fin (a * b) → β) (f : ℕ → β)
    (hf : ∀ s : Fin a, f s.val = ∑ jj : Fin b, g ⟨b * s.val + jj.val, pos_lt s jj⟩) :
    ∑ s ∈ Finset.range a, f s = ∑ j : Fin (a * b), g j := by
  rw [sum_blocks a b g, Finset.sum_range]
  exact Finset.sum_congr rfl fun s _ => hf s

end Cert.LibBlockSum
-- ==== Proof.Final0.lean ====
/-
  The first pallas_call's result array. Grid point t = 16 i + k works on row block i and column block k of the
  neighbour matrix. After it the scratch holds, at (p, q), the sum over the column blocks 0..k of the block
  products at row 2048 i + p — the aggregate accumulated so far; sixteen blocks of 2048 columns make the whole
  contraction over 32768 columns. At k = 15 the output block at (p, q) is therefore the layer of Spec.lean at row
  2048 i + p. The two written blocks tile the array.
-/
import proofs.«120716_j6485400617280_2_alg».proof.Proof.R0
import proofs.«120716_j6485400617280_2_alg».proof.Proof.Blocks
import proofs.«120716_j6485400617280_2_alg».proof.Proof.Pieces
import proofs.«120716_j6485400617280_2_alg».proof.Proof.PayRead
import proofs.«120716_j6485400617280_2_alg».proof.Proof.SpecArr
import proofs.«120716_j6485400617280_2_alg».proof.Proof.LibBlockSum
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

/-- The neighbour matrix read at natural-number coordinates (zero outside the array). -/
def mk (M : FVec Ideal S4096x32768 .f32) (r l : ℕ) : EReal := if h : r < 4096 ∧ l < 32768 then M (ix2 ⟨r, h.1⟩ ⟨l, h.2⟩) else 0
/-- The feature table read at a natural-number row (zero outside the array). -/
def fe (Fe : FVec Ideal S32768x128 .f32) (l : ℕ) (q : Fin 128) : EReal := if h : l < 32768 then Fe (ix2 ⟨l, h⟩ q) else 0
/-- Column block j's share of the aggregate at row r, feature q. -/
def part (M : FVec Ideal S4096x32768 .f32) (Fe : FVec Ideal S32768x128 .f32) (r j : ℕ) (q : Fin 128) : EReal :=
  ∑ l : Fin 2048, mk M r (2048 * j + l.val) * fe Fe (2048 * j + l.val) q

section
variable (c : Dev nD) (M : FVec Ideal S4096x32768 .f32) (Fe : FVec Ideal S32768x128 .f32) (X : FVec Ideal S4096x128 .f32) (W : FVec Ideal S256x256 .f32)
  (hM : V c main_arg1 = M) (hFe : V c main_arg0 = Fe) (hX : V c main_v6 = X)
  (hA : ∀ (k : Fin 128) (q : Fin 256), V c main_v8 (ix2 k q) = W (ix2 q ⟨k.val, by omega⟩))
  (hB : ∀ (k : Fin 128) (q : Fin 256), V c main_v10 (ix2 k q) = W (ix2 q ⟨128 + k.val, by omega⟩))

/-- The product of a block of the neighbour matrix and a block of the feature table, at (p, q). -/
def blockDot (v3 : Vec Ideal S2048x2048 .f32) (v4 : Vec Ideal S2048x128 .f32) (p : Fin 2048) (q : Fin 128) : EReal :=
  ∑ l : Fin 2048, v3 (ix2 p l) * v4 (ix2 l q)

/-- The accumulate step's stored value at (p, q): what the scratch held plus the block product. -/
theorem pay2_blockDot (v3 : Vec Ideal S2048x2048 .f32) (v4 v5 : Vec Ideal S2048x128 .f32) (p : Fin 2048) (q : Fin 128) :
    k0_pay2 v3 v4 v5 (ix2 p q) = v5 (ix2 p q) + blockDot v3 v4 p q :=
  Cert.KernelIdeal.PayRead.pay2_apply v3 v4 v5 p q

include hM hFe in
/-- The product of point t's two blocks at (p, q) is column block t % 16's share at row 2048 (t / 16) + p. -/
theorem blockprod (t : Fin cfg0.N) (p : Fin 2048) (q : Fin 128) :
    blockDot (iblk0 V c 0 t) (iblk0 V c 1 t) p q = part M Fe (2048 * (t.val / 16) + p.val) (t.val % 16) q := by
  have hN : t.val < 32 := lt_of_lt_of_eq t.isLt (show cfg0.N = 32 from N_0)
  unfold blockDot part mk fe
  refine Finset.sum_congr rfl fun l _ => ?_
  have hp := p.isLt; have hl := l.isLt
  have hr : 2048 * (t.val / 16) + p.val < 4096 := by omega
  have hc : 2048 * (t.val % 16) + l.val < 32768 := by omega
  rw [dif_pos ⟨hr, hc⟩, dif_pos hc]
  exact congrArg₂ (· * ·) ((iblk0_0_at V c t (ix2 p l) (ix2 ⟨_, hr⟩ ⟨_, hc⟩) rfl rfl).trans (congrFun hM _))
    ((iblk0_1_at V c t (ix2 l q) (ix2 ⟨_, hc⟩ q) rfl rfl).trans (congrFun hFe _))

set_option maxHeartbeats 400000 in
include hM hFe in
/-- THE ACCUMULATION: after point t the scratch holds the shares of the column blocks 0 .. t % 16 of its row block. -/
theorem acc_eq : ∀ (n : ℕ) (t : Fin cfg0.N), t.val = n → ∀ (p : Fin 2048) (q : Fin 128),
    (outsAt0 V c t.val t.isLt).2 (ix2 p q) = ∑ j ∈ Finset.range (t.val % 16 + 1), part M Fe (2048 * (t.val / 16) + p.val) j q := by
  intro n
  induction n with
  | zero =>
    intro t ht p q
    have h0 : t.val % 16 = 0 := by rw [ht]
    have h1 : ¬t.val % 16 = 15 := by rw [ht]; decide
    rw [congrArg Prod.snd (outsAt0_A V c t h0 h1)]
    unfold ptA; rw [sout0_A_eq]
    refine (pay2_blockDot _ _ _ p q).trans ?_
    rw [Cert.KernelIdeal.PayRead.pay1_apply, zero_add, blockprod V c M Fe hM hFe t p q, h0, Finset.sum_range_one]
  | succ n ih =>
    intro t ht p q
    have hN : t.val < 32 := lt_of_lt_of_eq t.isLt (show cfg0.N = 32 from N_0)
    by_cases h0 : t.val % 16 = 0
    · have h1 : ¬t.val % 16 = 15 := by omega
      rw [congrArg Prod.snd (outsAt0_A V c t h0 h1)]
      unfold ptA; rw [sout0_A_eq]
      refine (pay2_blockDot _ _ _ p q).trans ?_
      rw [Cert.KernelIdeal.PayRead.pay1_apply, zero_add, blockprod V c M Fe hM hFe t p q, h0, Finset.sum_range_one]
    · -- the point before, in the same row block
      have hlt : t.val - 1 < cfg0.N := Nat.lt_of_le_of_lt (Nat.sub_le _ _) t.isLt
      have hprev := ih ⟨t.val - 1, hlt⟩ (by show t.val - 1 = n; omega) p q
      have hd : (t.val - 1) / 16 = t.val / 16 := by omega
      have hm : (t.val - 1) % 16 + 1 = t.val % 16 := by omega
      have hprev' : (outsAt0 V c (t.val - 1) hlt).2 (ix2 p q)
          = ∑ j ∈ Finset.range (t.val % 16), part M Fe (2048 * (t.val / 16) + p.val) j q := by
        rw [← hm, ← hd]; exact hprev
      by_cases h1 : t.val % 16 = 15
      · rw [congrArg Prod.snd (outsAt0_C V c t h0 h1)]
        unfold ptCS; rw [sout0_C_eq]
        refine (pay2_blockDot _ _ _ p q).trans ?_
        rw [hprev', blockprod V c M Fe hM hFe t p q, Finset.sum_range_succ]
      · rw [congrArg Prod.snd (outsAt0_B V c t h0 h1)]
        unfold ptB; rw [sout0_B_eq]
        refine (pay2_blockDot _ _ _ p q).trans ?_
        rw [hprev', blockprod V c M Fe hM hFe t p q, Finset.sum_range_succ]

/-- Sixteen column blocks of 2048 are the whole contraction. -/
theorem parts_total (r : Fin 4096) (q : Fin 128) :
    ∑ j ∈ Finset.range 16, part M Fe r.val j q = ∑ l : Fin 32768, M (ix2 r l) * Fe (ix2 l q) := by
  have h := Cert.LibBlockSum.sum_blocks_range 16 2048 (fun l : Fin (16 * 2048) => mk M r.val l.val * fe Fe l.val q)
    (fun j => part M Fe r.val j q) (fun s => rfl)
  rw [h]
  refine Finset.sum_congr rfl fun l _ => ?_
  have hl : l.val < 32768 := l.isLt
  show mk M r.val l.val * fe Fe l.val q = _
  unfold mk fe
  rw [dif_pos ⟨r.isLt, hl⟩, dif_pos hl]

set_option maxHeartbeats 400000 in
include hM hFe hX hA hB in
/-- At a point that writes back (k = 15) the output block at (p, q) is the layer at row 2048 (t / 16) + p. -/
theorem after0_5_apply (t : Fin cfg0.N) (h1 : t.val % 16 = 15) (p : Fin 2048) (q : Fin 256) (r : Fin 4096)
    (hr : r.val = 2048 * (t.val / 16) + p.val) :
    (dat0 V c).after 5 t (ix2 p q) = layerArr (d := 128) (by norm_num) M Fe X W (ix2 r q) := by
  have h0 : ¬t.val % 16 = 0 := by omega
  have eC := outsAt0_C V c t h0 h1
  rw [after0_5, congrArg Prod.fst eC]
  unfold ptC5; rw [out0_C_5_eq]
  refine (Cert.KernelIdeal.PayRead.pay3_apply _ _ _ _ p q).trans ?_
  rw [layerArr_apply]
  refine congrArg (fun z => max z (0 : EReal)) ?_
  refine congrArg₂ (· + ·) ?_ ?_
  · refine Finset.sum_congr rfl fun k _ => congrArg₂ (· * ·) ?_ ?_
    · exact (iblk0_2_at V c t (ix2 p k) (ix2 r k) hr rfl).trans (congrFun hX _)
    · exact (iblk0_3_at V c t (ix2 k q) (ix2 k q) rfl rfl).trans (hA k q)
  · refine Finset.sum_congr rfl fun k _ => congrArg₂ (· * ·) ?_ ?_
    · -- the finished aggregate: what the scratch holds after this point
      have es : (outsAt0 V c t.val t.isLt).2 = k0_pay2 (iblk0 V c 0 t) (iblk0 V c 1 t) (outsAt0 V c (t.val - 1) (Nat.lt_of_le_of_lt (Nat.sub_le _ _) t.isLt)).2 := by
        rw [congrArg Prod.snd eC]; unfold ptCS; rw [sout0_C_eq]
      rw [← es, acc_eq V c M Fe hM hFe t.val t rfl p k, h1, ← hr]
      exact parts_total M Fe r k
    · exact (iblk0_4_at V c t (ix2 k q) (ix2 k q) rfl rfl).trans (hB k q)

include hM hFe hX hA hB in
/-- What a writing point writes back is its block of the layer on whole arrays. -/
theorem flushed0_5_eq (t : Fin cfg0.N) (hf : (cfg0.win 5).flush t = true) :
    (dat0 V c).flushed 5 t = ((cfg0.win 5).blk t).view.read (Elt Ideal) (layerArr (d := 128) (by norm_num) M Fe X W) := by
  have h1 : t.val % 16 = 15 := (flush0_5 t).mp hf
  show (cfg0.win 5).cut (grid0.coords t) ((dat0 V c).after 5 t) = _
  funext y
  obtain ⟨p, q, rfl⟩ : ∃ (p : Fin 2048) (q : Fin 256), y = ix2 p q := ⟨y 0, y 1, eq_ix2 y⟩
  obtain ⟨-, -, -, -, -, -, -, -, -, -, e0, e1⟩ := idx_facts0 t
  have hN : t.val < 32 := lt_of_lt_of_eq t.isLt (show cfg0.N = 32 from N_0)
  show (dat0 V c).after 5 t (ix2 p q) = layerArr (d := 128) (by norm_num) M Fe X W (((cfg0.win 5).blk t).view.emb (ix2 p q))
  rw [after0_5_apply V c M Fe X W hM hFe hX hA hB t h1 p q ⟨2048 * (t.val / 16) + p.val, by have := p.isLt; omega⟩ rfl]
  refine congrArg _ (funext fun a => Fin.ext ?_)
  match a with
  | ⟨0, _⟩ => show 2048 * (t.val / 16) + p.val = win0_5.index t (0 : Fin 2) * 2048 + 1 * p.val; rw [e0]; omega
  | ⟨1, _⟩ => show q.val = win0_5.index t (1 : Fin 2) * 256 + 1 * q.val; rw [e1]; omega

/-- An index of the result array is in point t's block iff each coordinate is in the block's range on its axis. -/
theorem mem_blk0_5 (t : Fin cfg0.N) (i : S4096x256.Idx) :
    i ∈ ((cfg0.win 5).blk t).view.set ↔ ∀ a : Fin 2, win0_5.index t a * S2048x256.size a ≤ (i a).val ∧ (i a).val < win0_5.index t a * S2048x256.size a + S2048x256.size a := by
  show i ∈ ((View.whole main_v11).slice (win0_5.rect t)).set ↔ _
  rw [View.set_slice_whole, Rect.mem_set_unit]
  exact Iff.rfl

/-- Every entry of the result array is in the block written at the last column step of its row block. -/
theorem cover0_5 (i : S4096x256.Idx) : ∃ t : Fin cfg0.N, (cfg0.win 5).flush t = true ∧ i ∈ ((cfg0.win 5).blk t).view.set := by
  have hi0 : (i 0).val < 4096 := (i 0).isLt
  have hi1 : (i 1).val < 256 := (i 1).isLt
  have ht : 16 * ((i 0).val / 2048) + 15 < cfg0.N := by rw [show cfg0.N = 32 from N_0]; omega
  refine ⟨⟨16 * ((i 0).val / 2048) + 15, ht⟩, (flush0_5 _).mpr (by show (16 * ((i 0).val / 2048) + 15) % 16 = 15; omega), ?_⟩
  rw [mem_blk0_5]
  obtain ⟨-, -, -, -, -, -, -, -, -, -, e0, e1⟩ := idx_facts0 ⟨16 * ((i 0).val / 2048) + 15, ht⟩
  intro a
  match a with
  | ⟨0, _⟩ => show win0_5.index _ (0 : Fin 2) * 2048 ≤ (i 0).val ∧ (i 0).val < win0_5.index _ (0 : Fin 2) * 2048 + 2048; rw [e0]; dsimp only; omega
  | ⟨1, _⟩ => show win0_5.index _ (1 : Fin 2) * 256 ≤ (i 1).val ∧ (i 1).val < win0_5.index _ (1 : Fin 2) * 256 + 256; rw [e1]; omega

include hM hFe hX hA hB in
/-- The first call's result array after the run: the layer on whole arrays. -/
theorem final0 : (dat0 V c).arrAt 5 cfg0.N = layerArr (d := 128) (by norm_num) M Fe X W :=
  (dat0 V c).arrAt_eq_of_cover 5 _ (fun t hf => flushed0_5_eq V c M Fe X W hM hFe hX hA hB t hf) cover0_5

end

end Cert.KernelIdeal.HandValue

end
-- ==== Proof.Final1.lean ====
/-
  The second pallas_call's result array. Grid point t computes rows 512 t .. 512 t + 511: its output block at
  (p, q) is the layer of Spec.lean at row 512 t + p, read off the region's arrays — the neighbour matrix's block
  of rows, the whole node table, the block of the nodes' own rows, and the two halves of the weight matrix. The
  two points' blocks tile the array, so the array after the run is the layer on whole arrays.
-/
import proofs.«120716_j6485400617280_2_alg».proof.Proof.R1
import proofs.«120716_j6485400617280_2_alg».proof.Proof.Blocks
import proofs.«120716_j6485400617280_2_alg».proof.Proof.Pieces
import proofs.«120716_j6485400617280_2_alg».proof.Proof.PayRead
import proofs.«120716_j6485400617280_2_alg».proof.Proof.SpecArr
import Idealize.ShloMosaic.Lib.Pipeline.Value

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (V : (c : Dev nD) → (b : Ref sig .tc) → Buf (Elt Ideal) ((c : Thread nD τ).loc b))

section
variable (c : Dev nD) (M : FVec Ideal S1024x4096 .f32) (H : FVec Ideal S4096x256 .f32) (X : FVec Ideal S1024x256 .f32) (W : FVec Ideal S256x512 .f32)
  (hM : V c main_arg2 = M) (hH : V c main_v11 = H) (hX : V c main_v18 = X)
  (hA : ∀ (k q : Fin 256), V c main_v20 (ix2 k q) = W (ix2 q ⟨k.val, by omega⟩))
  (hB : ∀ (k q : Fin 256), V c main_v22 (ix2 k q) = W (ix2 q ⟨256 + k.val, by omega⟩))

include hM hH hX hA hB in
/-- Point t's output block at (p, q) is the layer at row 512 t + p. -/
theorem after1_5_apply (t : Fin cfg1.N) (p : Fin 512) (q : Fin 256) (r : Fin 1024) (hr : r.val = 512 * t.val + p.val) :
    (dat1 V c).after 5 t (ix2 p q) = layerArr (d := 256) (by norm_num) M H X W (ix2 r q) := by
  rw [after1_5]
  unfold out1_5
  rw [View.canon_unit_zero hz2]
  simp only [View.ld_unit_zero (S := S512x4096) hz2, View.ld_unit_zero (S := S4096x256) hz2, View.ld_unit_zero (S := S512x256) hz2,
    View.ld_unit_zero (S := S256x256) hz2]
  refine (Cert.KernelIdeal.PayRead.k1_pay1_apply _ _ _ _ _ p q).trans ?_
  rw [layerArr_apply]
  refine congrArg (fun z => max z (0 : EReal)) ?_
  refine congrArg₂ (· + ·) ?_ ?_
  · refine Finset.sum_congr rfl fun k _ => congrArg₂ (· * ·) ?_ ?_
    · exact (iblk1_2_at V c t (ix2 p k) (ix2 r k) hr rfl).trans (congrFun hX _)
    · exact (iblk1_3_at V c t (ix2 k q) (ix2 k q) rfl rfl).trans (hA k q)
  · refine Finset.sum_congr rfl fun k _ => congrArg₂ (· * ·) ?_ ?_
    · refine Finset.sum_congr rfl fun l _ => congrArg₂ (· * ·) ?_ ?_
      · exact (iblk1_0_at V c t (ix2 p l) (ix2 r l) hr rfl).trans (congrFun hM _)
      · exact (iblk1_1_at V c t (ix2 l k) (ix2 l k) rfl rfl).trans (congrFun hH _)
    · exact (iblk1_4_at V c t (ix2 k q) (ix2 k q) rfl rfl).trans (hB k q)

include hM hH hX hA hB in
/-- What point t writes back is block t of the layer on whole arrays. -/
theorem flushed1_5_eq (t : Fin cfg1.N) :
    (dat1 V c).flushed 5 t = ((cfg1.win 5).blk t).view.read (Elt Ideal) (layerArr (d := 256) (by norm_num) M H X W) := by
  show (cfg1.win 5).cut (grid1.coords t) ((dat1 V c).after 5 t) = _
  funext y
  obtain ⟨p, q, rfl⟩ : ∃ (p : Fin 512) (q : Fin 256), y = ix2 p q := ⟨y 0, y 1, eq_ix2 y⟩
  obtain ⟨-, -, -, -, -, -, -, -, -, -, e0, e1⟩ := idx_facts1 t
  have hN : t.val < 2 := lt_of_lt_of_eq t.isLt (show cfg1.N = 2 from N_1)
  show (dat1 V c).after 5 t (ix2 p q) = layerArr (d := 256) (by norm_num) M H X W (((cfg1.win 5).blk t).view.emb (ix2 p q))
  rw [after1_5_apply V c M H X W hM hH hX hA hB t p q ⟨512 * t.val + p.val, by have := p.isLt; omega⟩ rfl]
  refine congrArg _ (funext fun a => Fin.ext ?_)
  match a with
  | ⟨0, _⟩ => show 512 * t.val + p.val = win1_5.index t (0 : Fin 2) * 512 + 1 * p.val; rw [e0]; omega
  | ⟨1, _⟩ => show q.val = win1_5.index t (1 : Fin 2) * 256 + 1 * q.val; rw [e1]; omega

/-- An index of the result array is in point t's block iff each coordinate is in the block's range on its axis. -/
theorem mem_blk1_5 (t : Fin cfg1.N) (i : S1024x256.Idx) :
    i ∈ ((cfg1.win 5).blk t).view.set ↔ ∀ a : Fin 2, win1_5.index t a * S512x256.size a ≤ (i a).val ∧ (i a).val < win1_5.index t a * S512x256.size a + S512x256.size a := by
  show i ∈ ((View.whole main_v23).slice (win1_5.rect t)).set ↔ _
  rw [View.set_slice_whole, Rect.mem_set_unit]
  exact Iff.rfl

/-- Every entry of the result array is in the block of the point its row falls in. -/
theorem cover1_5 (i : S1024x256.Idx) : ∃ t : Fin cfg1.N, (cfg1.win 5).flush t = true ∧ i ∈ ((cfg1.win 5).blk t).view.set := by
  have hi0 : (i 0).val < 1024 := (i 0).isLt
  have hi1 : (i 1).val < 256 := (i 1).isLt
  refine ⟨⟨(i 0).val / 512, by rw [show cfg1.N = 2 from N_1]; omega⟩, flush1_5 _, ?_⟩
  rw [mem_blk1_5]
  obtain ⟨-, -, -, -, -, -, -, -, -, -, e0, e1⟩ := idx_facts1 ⟨(i 0).val / 512, by rw [show cfg1.N = 2 from N_1]; omega⟩
  intro a
  match a with
  | ⟨0, _⟩ => show win1_5.index _ (0 : Fin 2) * 512 ≤ (i 0).val ∧ (i 0).val < win1_5.index _ (0 : Fin 2) * 512 + 512; rw [e0]; dsimp only; omega
  | ⟨1, _⟩ => show win1_5.index _ (1 : Fin 2) * 256 ≤ (i 1).val ∧ (i 1).val < win1_5.index _ (1 : Fin 2) * 256 + 256; rw [e1]; omega

include hM hH hX hA hB in
/-- The result array after the run: the layer on whole arrays. -/
theorem final1 : (dat1 V c).arrAt 5 cfg1.N = layerArr (d := 256) (by norm_num) M H X W :=
  (dat1 V c).arrAt_eq_of_cover 5 _ (fun t _ => flushed1_5_eq V c M H X W hM hH hX hA hB t) cover1_5

end

end Cert.KernelIdeal.HandValue

end
-- ==== Proof.WeightRead.lean ====
/-
  The kernel program's weight halves read at an entry.

  The kernel is given the two halves of each weight matrix transposed: the columns 0..d-1 of W, and the columns
  d..2d-1 of W, each turned so that its rows are indexed by the feature. Entry (k, q) of the first is W(q, k) and of
  the second W(q, d + k). These are layout operations: they move entries and compute nothing.
-/
import proofs.«120716_j6485400617280_2_alg».proof.Proof.Gen.KernelIdeal
import Idealize.ShloMosaic.Lib.ValueIdx
import Idealize.ShloMosaic.Lib.Pipeline.Value

noncomputable section

namespace Cert.KernelIdeal.WeightRead

open Idealize.ShloMosaic Idealize.ShloMosaic.ValueIdx Cert.KernelIdeal Cert.KernelIdeal.Gen

/-- The left half of the first layer's weights, transposed: entry (k, q) is W(q, k). -/
theorem w1a_apply (W : FVec Ideal S256x256 .f32) (k : Fin 128) (q : Fin 256) :
    transpose S128x256 [1, 0] (extractStridedSlice S256x128 ![0, 0] W slices_S256x256_S256x128_0_0) transposes_S256x128_S128x256_1_0 (ix2 k q)
      = W (ix2 q ⟨k.val, by omega⟩) := by
  refine (transpose_apply [1, 0] _ transposes_S256x128_S128x256_1_0 (ix2 k q) (ix2 q k)
    (fun bb => match bb with | ⟨0, _⟩ => rfl | ⟨1, _⟩ => rfl)).trans ?_
  exact extractStridedSlice_apply ![0, 0] W slices_S256x256_S256x128_0_0 (ix2 q k) (ix2 q ⟨k.val, by omega⟩)
    (fun bb => match bb with
      | ⟨0, _⟩ => by show q.val = 0 + q.val; omega
      | ⟨1, _⟩ => by show k.val = 0 + k.val; omega)

/-- The right half of the first layer's weights, transposed: entry (k, q) is W(q, 128 + k). -/
theorem w1b_apply (W : FVec Ideal S256x256 .f32) (k : Fin 128) (q : Fin 256) :
    transpose S128x256 [1, 0] (extractStridedSlice S256x128 ![0, 128] W slices_S256x256_S256x128_0_128) transposes_S256x128_S128x256_1_0 (ix2 k q)
      = W (ix2 q ⟨128 + k.val, by omega⟩) := by
  refine (transpose_apply [1, 0] _ transposes_S256x128_S128x256_1_0 (ix2 k q) (ix2 q k)
    (fun bb => match bb with | ⟨0, _⟩ => rfl | ⟨1, _⟩ => rfl)).trans ?_
  exact extractStridedSlice_apply ![0, 128] W slices_S256x256_S256x128_0_128 (ix2 q k) (ix2 q ⟨128 + k.val, by omega⟩)
    (fun bb => match bb with
      | ⟨0, _⟩ => by show q.val = 0 + q.val; omega
      | ⟨1, _⟩ => rfl)

/-- The left half of the second layer's weights, transposed: entry (k, q) is W(q, k). -/
theorem w2a_apply (W : FVec Ideal S256x512 .f32) (k : Fin 256) (q : Fin 256) :
    transpose S256x256 [1, 0] (extractStridedSlice S256x256 ![0, 0] W slices_S256x512_S256x256_0_0) transposes_S256x256_S256x256_1_0 (ix2 k q)
      = W (ix2 q ⟨k.val, by omega⟩) := by
  refine (transpose_apply [1, 0] _ transposes_S256x256_S256x256_1_0 (ix2 k q) (ix2 q k)
    (fun bb => match bb with | ⟨0, _⟩ => rfl | ⟨1, _⟩ => rfl)).trans ?_
  exact extractStridedSlice_apply ![0, 0] W slices_S256x512_S256x256_0_0 (ix2 q k) (ix2 q ⟨k.val, by omega⟩)
    (fun bb => match bb with
      | ⟨0, _⟩ => by show q.val = 0 + q.val; omega
      | ⟨1, _⟩ => by show k.val = 0 + k.val; omega)

/-- The right half of the second layer's weights, transposed: entry (k, q) is W(q, 256 + k). -/
theorem w2b_apply (W : FVec Ideal S256x512 .f32) (k : Fin 256) (q : Fin 256) :
    transpose S256x256 [1, 0] (extractStridedSlice S256x256 ![0, 256] W slices_S256x512_S256x256_0_256) transposes_S256x256_S256x256_1_0 (ix2 k q)
      = W (ix2 q ⟨256 + k.val, by omega⟩) := by
  refine (transpose_apply [1, 0] _ transposes_S256x256_S256x256_1_0 (ix2 k q) (ix2 q k)
    (fun bb => match bb with | ⟨0, _⟩ => rfl | ⟨1, _⟩ => rfl)).trans ?_
  exact extractStridedSlice_apply ![0, 256] W slices_S256x512_S256x256_0_256 (ix2 q k) (ix2 q ⟨256 + k.val, by omega⟩)
    (fun bb => match bb with
      | ⟨0, _⟩ => by show q.val = 0 + q.val; omega
      | ⟨1, _⟩ => rfl)

end Cert.KernelIdeal.WeightRead

end
-- ==== Proof.KValue.lean ====
/-
  The kernel program's result as one function of its arguments. The first call leaves the first layer on whole
  arrays in its result array; the host operations between the calls gather the second layer's own rows out of it
  and cut the second weight matrix in two; the second call leaves the second layer, over the first layer's result as
  its node table, in the program's result array.
-/
import proofs.«120716_j6485400617280_2_alg».proof.Proof.HostVals
import proofs.«120716_j6485400617280_2_alg».proof.Proof.Final0
import proofs.«120716_j6485400617280_2_alg».proof.Proof.Final1
import proofs.«120716_j6485400617280_2_alg».proof.Proof.WeightRead

set_option maxRecDepth 16384

noncomputable section

namespace Cert.KernelIdeal.HandValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Hand Cert.Spec

variable (m : (ℓ : Loc nD τ sig) → Buf (Elt Ideal) ℓ)

/-- The first layer's result, from the launch memory. -/
def H1 (c : Dev nD) : FVec Ideal S4096x256 .f32 :=
  layerArr (d := 128) (by norm_num) (m ((c : Thread nD τ).loc main_arg1)) (m ((c : Thread nD τ).loc main_arg0))
    (ownRows1 (m ((c : Thread nD τ).loc main_arg0)) (m ((c : Thread nD τ).loc main_arg5))) (m ((c : Thread nD τ).loc main_arg3))

/-- The program's result, from the launch memory. -/
def out (c : Dev nD) : FVec Ideal S1024x256 .f32 :=
  layerArr (d := 256) (by norm_num) (m ((c : Thread nD τ).loc main_arg2)) (H1 m c)
    (ownRows0 (H1 m c) (m ((c : Thread nD τ).loc main_arg6))) (m ((c : Thread nD τ).loc main_arg4))

theorem first_value (c : Dev nD) : (dat0 (V1 m) c).arrAt 5 cfg0.N = H1 m c :=
  final0 (V1 m) c _ _ _ _ (V1_arg1 m c) (V1_arg0 m c) (V1_v6 m c)
    (fun k q => (congrFun (V1_v8 m c) (ix2 k q)).trans (Cert.KernelIdeal.WeightRead.w1a_apply _ k q))
    (fun k q => (congrFun (V1_v10 m c) (ix2 k q)).trans (Cert.KernelIdeal.WeightRead.w1b_apply _ k q))

theorem kernel_value (c : Dev nD) : (dat1 (V3 m) c).arrAt 5 cfg1.N = out m c :=
  final1 (V3 m) c _ _ _ _ (V3_arg2 m c) ((V3_v11 m c).trans (first_value m c))
    ((V3_v18 m c).trans (congrArg (fun H => ownRows0 H _) (first_value m c)))
    (fun k q => (congrFun (V3_v20 m c) (ix2 k q)).trans (Cert.KernelIdeal.WeightRead.w2a_apply _ k q))
    (fun k q => (congrFun (V3_v22 m c) (ix2 k q)).trans (Cert.KernelIdeal.WeightRead.w2b_apply _ k q))

end Cert.KernelIdeal.HandValue

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.RefLayer.lean ====
/-
  One layer as the reference spells it, read at an entry, is the layer of the specification.

  The reference lays the nodes' own rows X [a, d] and the aggregate M · H [a, d] side by side into an [a, d + d] array
  and contracts its columns against the rows of the transposed weight matrix W [n, d + d], then takes the maximum
  with zero. At entry (r, j) the contraction is a sum over the d + d columns; cut at column d, the first part reads X
  against the left half of row j of W, and the second part reads the aggregate, itself the sum Σ_l M(r,l) · H(l,k),
  against the right half. This is a re-bracketing of a finite sum in a commutative monoid: no finiteness is used.
-/
import proofs.«120716_j6485400617280_2_alg».proof.Proof.SpecArr
import proofs.«120716_j6485400617280_2_alg».proof.Proof.LibDotsNT
import Idealize.ShloMosaic.Lib.Pipeline.Value
import Idealize.ShloMosaic.Lib.ValueIdx
import Idealize.ShloMosaic.PureOps.Ideal.Laws
import Mathlib.Algebra.BigOperators.Fin

noncomputable section

namespace Cert.ReferenceIdeal.RefLayer

open Idealize.ShloMosaic Idealize.ShloMosaic.ValueIdx

/-- A sum over d + d indices cut at d. -/
theorem sum_cut {M : Type*} [AddCommMonoid M] {d d2 : ℕ} (hd : d + d = d2) (f : Fin d2 → M) :
    ∑ k : Fin d2, f k = ∑ k : Fin d, f ⟨k.val, by omega⟩ + ∑ k : Fin d, f ⟨d + k.val, by omega⟩ := by
  subst hd
  rw [Fin.sum_univ_add]
  rfl

variable {a b d n d2 : ℕ} (hd : d + d = d2)
  (dO : DotDims ⟨2, ![a, d2]⟩ ⟨2, ![d2, n]⟩ ⟨2, ![a, n]⟩)
  (hOlc : dO.lhsContracting = [1]) (hOrc : dO.rhsContracting = [0]) (hOln : dO.lhsNonContracting = [0])
  (hOrn : dO.rhsNonContracting = [1]) (hOlb : dO.lhsBatch = []) (hOrb : dO.rhsBatch = [])
  (dI : DotDims ⟨2, ![a, b]⟩ ⟨2, ![b, d]⟩ ⟨2, ![a, d]⟩)
  (hIlc : dI.lhsContracting = [1]) (hIrc : dI.rhsContracting = [0]) (hIln : dI.lhsNonContracting = [0])
  (hIrn : dI.rhsNonContracting = [1]) (hIlb : dI.lhsBatch = []) (hIrb : dI.rhsBatch = [])
  (hc : Shape.Concatenates [(⟨2, ![a, d]⟩ : Shape), ⟨2, ![a, d]⟩] ⟨2, ![a, d2]⟩ 1)
  (ht : (⟨2, ![n, d2]⟩ : Shape).Transposes [1, 0] ⟨2, ![d2, n]⟩)
  (hb : (⟨0, ![]⟩ : Shape).BroadcastsInDim ⟨2, ![a, n]⟩ ![])

include hOlc hOrc hOln hOrn hOlb hOrb hIlc hIrc hIln hIrn hIlb hIrb in
/-- The reference's layer at entry (r, j), for dimension numbers that contract the second axis of the left operand with
    the first axis of the right one, with no batch axes. -/
theorem layer_apply (M : FVec Ideal ⟨2, ![a, b]⟩ .f32) (H : FVec Ideal ⟨2, ![b, d]⟩ .f32)
    (X : FVec Ideal ⟨2, ![a, d]⟩ .f32) (W : FVec Ideal ⟨2, ![n, d2]⟩ .f32) (r : Fin a) (j : Fin n) :
    maximumf (Host.dotGeneral dO none
        (concatenate ⟨2, ![a, d2]⟩ 1 [⟨⟨2, ![a, d]⟩, X⟩, ⟨⟨2, ![a, d]⟩, Host.dotGeneral dI none M H⟩] hc)
        (transpose ⟨2, ![d2, n]⟩ [1, 0] W ht))
      (broadcastInDim ⟨2, ![a, n]⟩ ![] hb (constant ⟨0, ![]⟩ .f32 0x00000000#32)) (ix2 r j)
      = Cert.Spec.layerArr hd M H X W (ix2 r j) := by
  refine Eq.trans ?_ (Cert.Spec.layerArr_apply hd M H X W r j).symm
  refine (maximumf_apply _ _ _).trans ?_
  refine congrArg₂ max ?_ ?_
  · refine (Cert.LibDotsNT.plain_dotGeneral_apply dO hOlc hOrc hOln hOrn hOlb hOrb none .single _ _ r j).trans ?_
    refine (sum_cut hd _).trans ?_
    refine congrArg₂ (· + ·) (Finset.sum_congr rfl fun k _ => ?_) (Finset.sum_congr rfl fun k _ => ?_)
    · refine congrArg₂ (· * ·) ?_ ?_
      · exact concatenate_pair_apply_left 1 X _ hc _ rfl (ix2 r k)
          (fun bb => match bb with | ⟨0, _⟩ => rfl | ⟨1, _⟩ => rfl)
      · exact transpose_apply [1, 0] W ht _ (ix2 j ⟨k.val, by omega⟩)
          (fun bb => match bb with | ⟨0, _⟩ => rfl | ⟨1, _⟩ => rfl)
    · refine congrArg₂ (· * ·) ?_ ?_
      · refine (concatenate_pair_apply_right 1 X _ hc _ rfl rfl (ix2 r k)
          (fun bb hbb => match bb, hbb with | ⟨0, _⟩, _ => rfl | ⟨1, _⟩, hbb => absurd rfl hbb)
          (by show k.val + d = d + k.val; omega)).trans ?_
        exact Cert.LibDotsNT.plain_dotGeneral_apply dI hIlc hIrc hIln hIrn hIlb hIrb none .single M H r k
      · exact transpose_apply [1, 0] W ht _ (ix2 j ⟨d + k.val, by omega⟩)
          (fun bb => match bb with | ⟨0, _⟩ => rfl | ⟨1, _⟩ => rfl)
  · refine (broadcastInDim_apply _ hb _ (ix2 r j) (fun e => e.elim0) (fun e => e.elim0)).trans ?_
    exact Ideal.ofBits_zero_f32

end Cert.ReferenceIdeal.RefLayer

end
-- ==== Proof.RefSpec.lean ====
/-
  The reference's two layers are the layer of the specification.

  Each is the maximum with zero of the contraction of [X | M · H] (the nodes' own rows and the aggregate side by side)
  against the transposed weight matrix: the first with 4096 rows over 32768 nodes and 128 features, the second with
  1024 rows over 4096 nodes and 256 features. Entry by entry both are the specification's layer.
-/
import proofs.«120716_j6485400617280_2_alg».proof.Proof.Gen.ReferenceIdeal.Read
import proofs.«120716_j6485400617280_2_alg».proof.Proof.SpecArr
import proofs.«120716_j6485400617280_2_alg».proof.Proof.RefLayer

noncomputable section

namespace Cert.ReferenceIdeal.RefSpec

open Idealize.ShloMosaic Idealize.ShloMosaic.ValueIdx Cert.ReferenceIdeal Cert.ReferenceIdeal.Gen

/-- The first layer: 4096 rows, 32768 nodes, 128 features, 256 outputs. -/
theorem layer0_eq (mask1 : FVec Ideal S4096x32768 .f32) (feats : FVec Ideal S32768x128 .f32) (X1 : FVec Ideal S4096x128 .f32) (W1 : FVec Ideal S256x256 .f32) :
    maximumf (Host.dotGeneral dot_S4096x256_S256x256_S4096x256_1_0_0_1_n_n none (concatenate S4096x256 1 [⟨S4096x128, X1⟩, ⟨S4096x128, Host.dotGeneral dot_S4096x32768_S32768x128_S4096x128_1_0_0_1_n_n none mask1 feats⟩] concatenates_S4096x128_S4096x128_S4096x256_d1) (transpose S256x256 [1, 0] W1 transposes_S256x256_S256x256_1_0)) (broadcastInDim S4096x256 ![] bcast_S_S4096x256 (constant S_ .f32 0x00000000#32))
      = Cert.Spec.layerArr (d := 128) (by norm_num) mask1 feats X1 W1 := by
  funext i
  obtain ⟨r, j, rfl⟩ : ∃ r j, i = ix2 r j := ⟨i 0, i 1, eq_ix2 i⟩
  exact Cert.ReferenceIdeal.RefLayer.layer_apply _ dot_S4096x256_S256x256_S4096x256_1_0_0_1_n_n rfl rfl rfl rfl rfl rfl
    dot_S4096x32768_S32768x128_S4096x128_1_0_0_1_n_n rfl rfl rfl rfl rfl rfl
    concatenates_S4096x128_S4096x128_S4096x256_d1 transposes_S256x256_S256x256_1_0 bcast_S_S4096x256 mask1 feats X1 W1 r j

/-- The second layer: 1024 rows, 4096 nodes, 256 features, 256 outputs. -/
theorem layer1_eq (mask0 : FVec Ideal S1024x4096 .f32) (H : FVec Ideal S4096x256 .f32) (X0 : FVec Ideal S1024x256 .f32) (W2 : FVec Ideal S256x512 .f32) :
    maximumf (Host.dotGeneral dot_S1024x512_S512x256_S1024x256_1_0_0_1_n_n none (concatenate S1024x512 1 [⟨S1024x256, X0⟩, ⟨S1024x256, Host.dotGeneral dot_S1024x4096_S4096x256_S1024x256_1_0_0_1_n_n none mask0 H⟩] concatenates_S1024x256_S1024x256_S1024x512_d1) (transpose S512x256 [1, 0] W2 transposes_S256x512_S512x256_1_0)) (broadcastInDim S1024x256 ![] bcast_S_S1024x256 (constant S_ .f32 0x00000000#32))
      = Cert.Spec.layerArr (d := 256) (by norm_num) mask0 H X0 W2 := by
  funext i
  obtain ⟨r, j, rfl⟩ : ∃ r j, i = ix2 r j := ⟨i 0, i 1, eq_ix2 i⟩
  exact Cert.ReferenceIdeal.RefLayer.layer_apply _ dot_S1024x512_S512x256_S1024x256_1_0_0_1_n_n rfl rfl rfl rfl rfl rfl
    dot_S1024x4096_S4096x256_S1024x256_1_0_0_1_n_n rfl rfl rfl rfl rfl rfl
    concatenates_S1024x256_S1024x256_S1024x512_d1 transposes_S256x512_S512x256_1_0 bcast_S_S1024x256 mask0 H X0 W2 r j

end Cert.ReferenceIdeal.RefSpec

end
-- ==== Proof.lean ====
/-
  Two graph-convolution layers, computed by two fused pallas_calls, against the same layers written with whole-array
  jnp operations. One layer, at entry (r, j), is

      max ( Σ_k X(r,k)·W(j,k) + Σ_k ( Σ_l M(r,l)·H(l,k) )·W(j,d+k) , 0 )

  with M the row-normalised neighbour matrix, H the node table, X the nodes' own rows (a gather of H's rows) and W
  the layer's weight matrix of 2d columns. The kernel computes x·Wa + agg·Wb with the two halves of W transposed
  on the host, agg = M·H by matrix products into zero accumulators — in the first layer accumulated over sixteen
  column blocks of M in a scratch buffer carried from one grid point to the next —; the reference lays x and M·H side
  by side and contracts the 2d columns against W transposed. On the extended reals the two are re-bracketings of finite
  sums, so the claim needs no finiteness of the inputs. The row gathers are the same host operations in both
  programs and are never opened.

  The frames: the reference's is its run with the result dropped; the kernel program's, at the word level and
  idealized, is its four segments (host operations, first call, host operations, second call) run in order, each call
  a pipeline whose body obligation is proved per kind of grid point.
-/
import proofs.«120716_j6485400617280_2_alg».proof.Defs
import proofs.«120716_j6485400617280_2_alg».proof.Proof.Gen.Kernel
import proofs.«120716_j6485400617280_2_alg».proof.Proof.Gen.KernelIdeal
import proofs.«120716_j6485400617280_2_alg».proof.Proof.Gen.ReferenceIdeal
import proofs.«120716_j6485400617280_2_alg».proof.Proof.Gen.Pre_finite_inputs
import proofs.«120716_j6485400617280_2_alg».proof.Proof.Gen.ReferenceIdeal.Read
import proofs.«120716_j6485400617280_2_alg».proof.Proof.KRun
import proofs.«120716_j6485400617280_2_alg».proof.Proof.Run
import proofs.«120716_j6485400617280_2_alg».proof.Proof.KValue
import proofs.«120716_j6485400617280_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the two layers of the launch arrays in their result array. -/
theorem algebraic : Cert.algebraic_KernelIdeal_ReferenceIdeal := by
  intro m ρ m' ρ' _ hagree
  refine ⟨fun c => Cert.KernelIdeal.HandValue.out m c, ?_, ?_⟩
  · exact (θ_run Cert.KernelIdeal.defs _ _).mono
      (fun _ h c => ⟨(h c).1.trans (Cert.KernelIdeal.HandValue.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2.1, (hagree c).2.2.2.1, (hagree c).2.2.2.2.1, (hagree c).2.2.2.2.2.1,
      (hagree c).2.2.2.2.2.2]
    rw [Cert.ReferenceIdeal.RefSpec.layer0_eq]
    exact (Cert.ReferenceIdeal.RefSpec.layer1_eq _ _ _ _).trans rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
